-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S2x1x1 : Shape := ⟨3, ![2, 1, 1]⟩
abbrev S1x1x1 : Shape := ⟨3, ![1, 1, 1]⟩
abbrev S1x1 : Shape := ⟨2, ![1, 1]⟩
abbrev S512x256 : Shape := ⟨2, ![512, 256]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1 : Shape := ⟨1, ![1]⟩
abbrev S_ : Shape := ⟨0, ![]⟩

abbrev nBuf : Space → Nat
  | .hbm => 7
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S2x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S8192x256, .f32⟩
  | .local _ .vmem, ⟨1, _⟩ => ⟨S8192x256, .f32⟩
  | .local _ .vmem, ⟨2, _⟩ => ⟨S1x1x1, .f32⟩
  | .local _ .vmem, ⟨3, _⟩ => ⟨S1x1x1, .f32⟩
  | .local _ .vmem, ⟨4, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨3, ![2, 8, 16], ![false, false, false]⟩

def k0_mult1 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c512_i32 : BitVec 32 := 512#32
  let v7 : BitVec 32 := Scalar.muli v1 c512_i32
  v7
def k0_mult2 (i : grid0.Coords) : BitVec 32 :=
  let arg2 : BitVec 32 := BitVec.ofNat 32 (i 2).val
  let c512_i32_2 : BitVec 32 := 512#32
  let v9 : BitVec 32 := Scalar.muli arg2 c512_i32_2
  v9
def k0_off1 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c512_i32 : BitVec 32 := 512#32
  let v7 : BitVec 32 := Scalar.muli v1 c512_i32
  let v8 : BitVec 32 := v7
  let v11 : Index := Scalar.indexCast v8
  let c0 : Index := 0#32
  ![v11.toNat, 0]
def k0_off2 (i : grid0.Coords) : Fin 2 → Nat :=
  let arg2 : BitVec 32 := BitVec.ofNat 32 (i 2).val
  let c512_i32_2 : BitVec 32 := 512#32
  let v9 : BitVec 32 := Scalar.muli arg2 c512_i32_2
  let v10 : BitVec 32 := v9
  let v15 : Index := Scalar.indexCast v10
  let c0_4 : Index := 0#32
  ![v15.toNat, 0]
def k0_cond2 (i : grid0.Coords) : BitVec 1 :=
  let arg1 : BitVec 32 := BitVec.ofNat 32 (i 1).val
  let c7_i32 : BitVec 32 := 7#32
  let v116 : BitVec 1 := Scalar.cmpi .eq arg1 c7_i32
  let arg2 : BitVec 32 := BitVec.ofNat 32 (i 2).val
  let c15_i32 : BitVec 32 := 15#32
  let v117 : BitVec 1 := Scalar.cmpi .eq arg2 c15_i32
  let v118 : BitVec 1 := Scalar.andi v116 v117
  let v119 : BitVec 32 := Scalar.extui v118
  let c0_i32_36 : BitVec 32 := 0#32
  let v120 : BitVec 1 := Scalar.cmpi .ne v119 c0_i32_36
  v120

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S512x256 : 0 < S512x256.numel
  reduces_S512x256_S512 : S512x256.Reduces [1] S512
  shapeCasts_S512_S512x1 : S512.ShapeCasts S512x1
  transposes_S512x1_p1_0_S1x512 : S512x1.Transposes [1, 0] S1x512
  bitsLt_bf16_f32 : FTy.bits .bf16 < FTy.bits .f32
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  reduces_S512x1_S1 : S512x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  dot_S512x256_S512x256_S512x512_1_1_0_0_n_n_wf : DotDims.WF S512x256 S512x256 S512x512 [1] [1] [0] [0] [] []
  hrank0 : 0 < grid0.rank
  k0_mult1_dvd : ∀ i : grid0.Coords, 512 ∣ (k0_mult1 i).toNat
  k0_mult2_dvd : ∀ i : grid0.Coords, 512 ∣ (k0_mult2 i).toNat
  k0_off1_inb : ∀ i : grid0.Coords, ∀ a, (k0_off1 i) a + S512x256.size a ≤ S8192x256.size a
  k0_off2_inb : ∀ i : grid0.Coords, ∀ a, (k0_off2 i) a + S512x256.size a ≤ S8192x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .f32 = 32 ∨ (Rect.block (s := S8192x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_arg0) S8192x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 77
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S256x8192, .f32⟩
  | .hbm, ⟨9, _⟩ => ⟨S8192x8192, .f32⟩
  | .hbm, ⟨10, _⟩ => ⟨S8192x1, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x256, .f32⟩
  | .hbm, ⟨25, _⟩ => ⟨S_, .f32⟩
  | .hbm, ⟨26, _⟩ => ⟨S8192, .f32⟩
  | .hbm, ⟨27, _⟩ => ⟨S8192x256, .f32⟩
  | .hbm, ⟨28, _⟩ => ⟨S_, .f32⟩
  | .hbm, ⟨29, _⟩ => ⟨S8192, .f32⟩
  | .hbm, ⟨30, _⟩ => ⟨S256x8192, .f32⟩
  | .hbm, ⟨31, _⟩ => ⟨S8192x8192, .f32⟩
  | .hbm, ⟨32, _⟩ => ⟨S8192x1, .f32⟩
  | .hbm, ⟨33, _⟩ => ⟨S1x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S8192x256, .f32⟩
  | .hbm, ⟨47, _⟩ => ⟨S_, .f32⟩
  | .hbm, ⟨48, _⟩ => ⟨S8192, .f32⟩
  | .hbm, ⟨49, _⟩ => ⟨S8192x256, .f32⟩
  | .hbm, ⟨50, _⟩ => ⟨S_, .f32⟩
  | .hbm, ⟨51, _⟩ => ⟨S8192, .f32⟩
  | .hbm, ⟨52, _⟩ => ⟨S256x8192, .f32⟩
  | .hbm, ⟨53, _⟩ => ⟨S8192x8192, .f32⟩
  | .hbm, ⟨54, _⟩ => ⟨S8192x1, .f32⟩
  | .hbm, ⟨55, _⟩ => ⟨S1x8192, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S_, .f32⟩
  | .hbm, ⟨65, _⟩ => ⟨S8192x8192, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_7 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_9 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_10 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_11 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_12 : Ref sig .tc := ⟨.hbm, 73, rfl⟩
abbrev main_v58 : Ref sig .tc := ⟨.hbm, 74, rfl⟩
abbrev main_cst_13 : Ref sig .tc := ⟨.hbm, 75, rfl⟩
abbrev main_v59 : Ref sig .tc := ⟨.hbm, 76, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KernelPieces.lean ====
/-
  What one grid point leaves in the running sum and in the output block, as one term of the two whole input arrays.

  At grid coordinates `i = (core, il, j)` the body reads four 512 × 256 row blocks — rows (core·8 + il)·512 … of each input
  (the row tile) and rows j·512 … of each input (the column tile) — forms the three tile sums of Gaussian kernel
  entries, and adds  s-part + t-part − 2·st-part  to the running sum it found.  At the first point of a core the running
  sum it found is the zero it has just stored; at the last point of a core the new running sum is also copied to the
  output block.  The lemmas below say that each piece the body's run stores is this one term.
-/
import proofs.«102746_j77438260347128_2_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The row tile of an input at grid coordinates `i`: 512 rows from row (core·8 + il)·512. -/
def rowTile (i : grid0.Coords) (x : Vec F S8192x256 .f32) : Vec F S512x256 .f32 :=
  View.ld x (Rect.unit (s := S8192x256) (k0_off1 i) S512x256.size (k0_off1_inb i))

/-- The column tile of an input at grid coordinates `i`: 512 rows from row j·512. -/
def colTile (i : grid0.Coords) (x : Vec F S8192x256 .f32) : Vec F S512x256 .f32 :=
  View.ld x (Rect.unit (s := S8192x256) (k0_off2 i) S512x256.size (k0_off2_inb i))

/-- Whether the tile is on the diagonal: core·8 + il = j, as the body computes it. -/
def diagBit (i : grid0.Coords) : BitVec 1 :=
  Scalar.cmpi .eq (Scalar.addi (Scalar.muli (BitVec.ofNat 32 (i 0).val) 8#32) (BitVec.ofNat 32 (i 1).val)) (BitVec.ofNat 32 (i 2).val)

/-- The running sum after the point at `i`, from the two input arrays and the running sum found. -/
def accStep (i : grid0.Coords) (x0 x1 : Vec F S8192x256 .f32) (acc : Vec F S1x1 .f32) : Vec F S1x1 .f32 :=
  k0_pay1 (rowTile i x0) (colTile i x1)
    (k0_pay5 (diagBit i) (k0_pay4 (rowTile i x0) (colTile i x0)))
    (k0_pay6 (rowTile i x1) (colTile i x1) (diagBit i))
    (k0_pay7 (rowTile i x0)) (k0_pay8 (colTile i x1)) acc

theorem hz2 : (![0, 0] : Fin S1x1.rank → ℕ) = fun _ => 0 := by
  funext a; match a with | ⟨0, _⟩ => rfl | ⟨1, _⟩ => rfl

theorem hz3 : (![0, 0, 0] : Fin S1x1x1.rank → ℕ) = fun _ => 0 := by
  funext a; match a with | ⟨0, _⟩ => rfl | ⟨1, _⟩ => rfl | ⟨2, _⟩ => rfl

/-- A point that neither starts nor ends a core's run leaves the step over the running sum it found. -/
theorem sout_B (c : Dev nD) (i : grid0.Coords) (arg3 : Memref sig .tc .vmem S8192x256 .f32) (harg3 : arg3.IsWhole) (arg4 : Memref sig .tc .vmem S8192x256 .f32) (harg4 : arg4.IsWhole) (arg5 : Memref sig .tc .vmem S1x1x1 .f32) (harg5 : arg5.IsWhole) (arg6 : Memref sig .tc .vmem S1x1 .f32) (harg6 : arg6.IsWhole) (hc0 : ¬cond0_0 i) (hc1 : ¬cond0_1 i)
    (x0 : Vec F S8192x256 .f32) (x1 : Vec F S8192x256 .f32) (xs0 : Vec F S1x1 .f32) :
    sout0_B_0 c i arg3 harg3 arg4 harg4 arg5 harg5 arg6 harg6 hc0 hc1 x0 x1 xs0 = accStep i x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz2]
  simp only [View.readAt_eq_ld, harg3.read_unread, harg4.read_unread, harg6.read_unread, View.ld_unit_zero (S := S1x1) hz2]
  rfl

/-- The last point of a core's run leaves the same step in the running sum … -/
theorem sout_C (c : Dev nD) (i : grid0.Coords) (arg3 : Memref sig .tc .vmem S8192x256 .f32) (harg3 : arg3.IsWhole) (arg4 : Memref sig .tc .vmem S8192x256 .f32) (harg4 : arg4.IsWhole) (arg5 : Memref sig .tc .vmem S1x1x1 .f32) (harg5 : arg5.IsWhole) (arg6 : Memref sig .tc .vmem S1x1 .f32) (harg6 : arg6.IsWhole) (hc0 : ¬cond0_0 i) (hc1 : cond0_1 i)
    (x0 : Vec F S8192x256 .f32) (x1 : Vec F S8192x256 .f32) (xs0 : Vec F S1x1 .f32) :
    sout0_C_0 c i arg3 harg3 arg4 harg4 arg5 harg5 arg6 harg6 hc0 hc1 x0 x1 xs0 = accStep i x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz2]
  simp only [View.readAt_eq_ld, harg3.read_unread, harg4.read_unread, harg6.read_unread, View.ld_unit_zero (S := S1x1) hz2]
  rfl

/-- … and copies it to the output block. -/
theorem out_C (c : Dev nD) (i : grid0.Coords) (arg3 : Memref sig .tc .vmem S8192x256 .f32) (harg3 : arg3.IsWhole) (arg4 : Memref sig .tc .vmem S8192x256 .f32) (harg4 : arg4.IsWhole) (arg5 : Memref sig .tc .vmem S1x1x1 .f32) (harg5 : arg5.IsWhole) (arg6 : Memref sig .tc .vmem S1x1 .f32) (harg6 : arg6.IsWhole) (hc0 : ¬cond0_0 i) (hc1 : cond0_1 i)
    (x0 : Vec F S8192x256 .f32) (x1 : Vec F S8192x256 .f32) (xs0 : Vec F S1x1 .f32) :
    out0_C_2 c i arg3 harg3 arg4 harg4 arg5 harg5 arg6 harg6 hc0 hc1 x0 x1 xs0 = k0_pay2 (accStep i x0 x1 xs0) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz3, View.readCov_unit_zero _ hz2]
  simp only [View.readAt_eq_ld, harg3.read_unread, harg4.read_unread, harg6.read_unread, View.ld_unit_zero (S := S1x1) hz2]
  rfl

/-- The first point of a core's run leaves the step over the zero it has just stored. -/
theorem sout_A (c : Dev nD) (i : grid0.Coords) (arg3 : Memref sig .tc .vmem S8192x256 .f32) (harg3 : arg3.IsWhole) (arg4 : Memref sig .tc .vmem S8192x256 .f32) (harg4 : arg4.IsWhole) (arg5 : Memref sig .tc .vmem S1x1x1 .f32) (harg5 : arg5.IsWhole) (arg6 : Memref sig .tc .vmem S1x1 .f32) (harg6 : arg6.IsWhole) (hc0 : cond0_0 i) (hc1 : ¬cond0_1 i)
    (x0 : Vec F S8192x256 .f32) (x1 : Vec F S8192x256 .f32) :
    sout0_A_0 c i arg3 harg3 arg4 harg4 arg5 harg5 arg6 harg6 hc0 hc1 x0 x1 = accStep i x0 x1 (k0_pay3 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero hz2, View.readCov_unit_zero _ hz2]
  simp only [View.readAt_eq_ld, harg3.read_unread, harg4.read_unread]
  rfl

end Cert.KernelIdeal.Pieces

end
-- ==== Proof.MmdReal.lean ====
/-
  The kernel mean discrepancy over the reals.  For two families of 8192 rows of 256 reals, `s` and `t`, with the Gaussian
  kernel  k(x, y) = exp(-‖x - y‖² / 2)  and ‖x - y‖² expanded as ‖x‖² + ‖y‖² - 2 x·y, the quantity is the mean over all
  pairs (i, j) of  k(s_i, s_j) + k(t_i, t_j) - 2 k(s_i, t_j).

  Two facts join a tiled evaluation to the plain one.  On the diagonal the expanded squared distance of a row to itself is
  exactly 0, so the kernel entry is exp 0 = 1: writing 1 there changes nothing.  And the square of index pairs is the
  disjoint union of 16 × 16 tiles of 512 × 512 pairs, so the sum over all pairs is the sum over tiles of the sums inside
  each tile; the tiles themselves are visited 256 in a row, tile number n being (n / 16, n % 16).
-/
import Mathlib

noncomputable section

namespace Mmd

open Finset

/-- ‖a_i‖², as the sum of the squares of the row's entries. -/
def sq (a : Fin 8192 → Fin 256 → ℝ) (i : Fin 8192) : ℝ := ∑ k : Fin 256, a i k * a i k

/-- a_i · b_j. -/
def dot (a b : Fin 8192 → Fin 256 → ℝ) (i j : Fin 8192) : ℝ := ∑ k : Fin 256, a i k * b j k

/-- ‖a_i - b_j‖² in expanded form. -/
def sqd (a b : Fin 8192 → Fin 256 → ℝ) (i j : Fin 8192) : ℝ := (sq a i + sq b j) - 2 * dot a b i j

/-- The Gaussian kernel entry k(a_i, b_j). -/
def gauss (a b : Fin 8192 → Fin 256 → ℝ) (i j : Fin 8192) : ℝ := Real.exp (-(sqd a b i j) / 2)

/-- The summand of the discrepancy at the pair (i, j). -/
def term (s t : Fin 8192 → Fin 256 → ℝ) (i j : Fin 8192) : ℝ := (gauss s s i j + gauss t t i j) - 2 * gauss s t i j

/-- The mean over all 8192² = 67108864 pairs. -/
def mmd (s t : Fin 8192 → Fin 256 → ℝ) : ℝ := (∑ i : Fin 8192, ∑ j : Fin 8192, term s t i j) / 67108864

/-- Row `r` of tile `g`: the row g·512 + r. -/
def row (g : Fin 16) (r : Fin 512) : Fin 8192 := ⟨g.val * 512 + r.val, by omega⟩

/-- The sum of k(a, a) over tile (g, j), with the entries on the main diagonal (only a diagonal tile has any) written 1. -/
def selfTile (a : Fin 8192 → Fin 256 → ℝ) (g j : Fin 16) : ℝ :=
  ∑ r : Fin 512, ∑ c : Fin 512, if g = j ∧ r = c then 1 else gauss a a (row g r) (row j c)

/-- The sum of k(a, b) over tile (g, j). -/
def crossTile (a b : Fin 8192 → Fin 256 → ℝ) (g j : Fin 16) : ℝ :=
  ∑ r : Fin 512, ∑ c : Fin 512, gauss a b (row g r) (row j c)

/-- One tile's contribution. -/
def tile (s t : Fin 8192 → Fin 256 → ℝ) (g j : Fin 16) : ℝ := (selfTile s g j + selfTile t g j) - 2 * crossTile s t g j

/-- A natural number as a tile coordinate. -/
def fin16 (n : ℕ) : Fin 16 := ⟨n % 16, Nat.mod_lt _ (by norm_num)⟩

/-- The contribution of the n-th tile visited: tile (n / 16, n % 16). -/
def tileAt (s t : Fin 8192 → Fin 256 → ℝ) (n : ℕ) : ℝ := tile s t (fin16 (n / 16)) (fin16 n)

/-- The expanded squared distance of a row to itself is 0, so its kernel entry is 1. -/
theorem gauss_diag (a : Fin 8192 → Fin 256 → ℝ) (i : Fin 8192) : gauss a a i i = 1 := by
  have h : sqd a a i i = 0 := by
    unfold sqd sq dot
    ring
  unfold gauss
  rw [h]
  simp

/-- The rows are indexed by (tile, row in tile): (g, r) ↦ g·512 + r is a bijection of 16 × 512 onto the 8192 rows,
with inverse i ↦ (i / 512, i % 512). -/
def rowEquiv : Fin 16 × Fin 512 ≃ Fin 8192 where
  toFun p := row p.1 p.2
  invFun i := (⟨i.val / 512, by omega⟩, ⟨i.val % 512, by omega⟩)
  left_inv := by
    rintro ⟨g, r⟩
    have hg := g.isLt
    have hr := r.isLt
    apply Prod.ext <;> apply Fin.ext
    · show (g.val * 512 + r.val) / 512 = g.val
      omega
    · show (g.val * 512 + r.val) % 512 = r.val
      omega
  right_inv := by
    intro i
    apply Fin.ext
    show i.val / 512 * 512 + i.val % 512 = i.val
    omega

/-- A sum over all rows is the sum over the tiles of the sums over a tile's rows. -/
theorem sum_rows (f : Fin 8192 → ℝ) : ∑ i, f i = ∑ g : Fin 16, ∑ r : Fin 512, f (row g r) := by
  rw [← Equiv.sum_comp rowEquiv f, Fintype.sum_prod_type]
  rfl

/-- A sum over all pairs of rows is the sum over the pairs of tiles of the sums inside a tile. -/
theorem sum_pairs (F : Fin 8192 → Fin 8192 → ℝ) :
    ∑ i, ∑ j, F i j = ∑ g : Fin 16, ∑ j : Fin 16, ∑ r : Fin 512, ∑ c : Fin 512, F (row g r) (row j c) := by
  rw [sum_rows]
  refine Finset.sum_congr rfl fun g _ => ?_
  have h : ∀ r : Fin 512, ∑ j, F (row g r) j = ∑ j : Fin 16, ∑ c : Fin 512, F (row g r) (row j c) :=
    fun r => sum_rows _
  rw [Finset.sum_congr rfl fun r _ => h r]
  exact Finset.sum_comm

/-- Writing 1 on the diagonal changes nothing: there the two rows are the same row, whose kernel entry is 1. -/
theorem selfTile_eq (a : Fin 8192 → Fin 256 → ℝ) (g j : Fin 16) :
    selfTile a g j = ∑ r : Fin 512, ∑ c : Fin 512, gauss a a (row g r) (row j c) := by
  unfold selfTile
  refine Finset.sum_congr rfl fun r _ => Finset.sum_congr rfl fun c _ => ?_
  split_ifs with h
  · obtain ⟨rfl, rfl⟩ := h
    exact (gauss_diag a _).symm
  · rfl

/-- A tile's contribution is the sum of the summands at its pairs. -/
theorem tile_eq (s t : Fin 8192 → Fin 256 → ℝ) (g j : Fin 16) :
    tile s t g j = ∑ r : Fin 512, ∑ c : Fin 512, term s t (row g r) (row j c) := by
  unfold tile crossTile term
  rw [selfTile_eq, selfTile_eq]
  simp only [Finset.mul_sum, Finset.sum_add_distrib, Finset.sum_sub_distrib]

/-- The sum over all pairs is the sum over the 16 × 16 tiles. -/
theorem sum_tiles (s t : Fin 8192 → Fin 256 → ℝ) :
    ∑ g : Fin 16, ∑ j : Fin 16, tile s t g j = ∑ i : Fin 8192, ∑ j : Fin 8192, term s t i j := by
  rw [sum_pairs]
  exact Finset.sum_congr rfl fun g _ => Finset.sum_congr rfl fun j _ => tile_eq s t g j

/-- The tiles are visited in the order n ↦ (n / 16, n % 16): (g, j) ↦ g·16 + j is a bijection of 16 × 16 onto 256. -/
def tileEquiv : Fin 16 × Fin 16 ≃ Fin 256 where
  toFun p := ⟨p.1.val * 16 + p.2.val, by omega⟩
  invFun n := (⟨n.val / 16, by omega⟩, ⟨n.val % 16, by omega⟩)
  left_inv := by
    rintro ⟨g, j⟩
    have hg := g.isLt
    have hj := j.isLt
    apply Prod.ext <;> apply Fin.ext
    · show (g.val * 16 + j.val) / 16 = g.val
      omega
    · show (g.val * 16 + j.val) % 16 = j.val
      omega
  right_inv := by
    intro n
    apply Fin.ext
    show n.val / 16 * 16 + n.val % 16 = n.val
    omega

/-- The tile visited at position g·16 + j is tile (g, j). -/
theorem tileAt_pair (s t : Fin 8192 → Fin 256 → ℝ) (g j : Fin 16) :
    tileAt s t (g.val * 16 + j.val) = tile s t g j := by
  have hg := g.isLt
  have hj := j.isLt
  have h1 : fin16 ((g.val * 16 + j.val) / 16) = g := by
    apply Fin.ext
    show (g.val * 16 + j.val) / 16 % 16 = g.val
    omega
  have h2 : fin16 (g.val * 16 + j.val) = j := by
    apply Fin.ext
    show (g.val * 16 + j.val) % 16 = j.val
    omega
  unfold tileAt
  rw [h1, h2]

/-- Two runs of 128 tiles each, added and scaled by 2⁻²⁶, give the mean. -/
theorem mmd_points (s t : Fin 8192 → Fin 256 → ℝ) :
    ((∑ q ∈ range 128, tileAt s t q) + (∑ q ∈ range 128, tileAt s t (128 + q))) * (1 / 67108864) = mmd s t := by
  rw [← Finset.sum_range_add (fun q => tileAt s t q) 128 128]
  have h : ∑ n ∈ range (128 + 128), tileAt s t n = ∑ g : Fin 16, ∑ j : Fin 16, tile s t g j := by
    rw [show 128 + 128 = 256 from rfl, Finset.sum_range, ← Equiv.sum_comp tileEquiv, Fintype.sum_prod_type]
    exact Finset.sum_congr rfl fun g _ => Finset.sum_congr rfl fun j _ => tileAt_pair s t g j
  rw [h, sum_tiles, mul_one_div]
  rfl

end Mmd

end
-- ==== Proof.TileSpec.lean ====
/-
  One tile's update of the running sum, on the extended reals, as the body's arithmetic reads index by index.

  For 512 × 256 blocks u (rows) and w (columns): the squared norm of a row is the sum of the squares of its entries; the
  exponent at (r, c) is  (0 − ((‖u_r‖² + ‖w_c‖²) − 2·u_r·w_c)) · ½ ; a self tile sums exp of the exponent over the tile,
  except that on a diagonal tile the entries with r = c are written 1; a cross tile sums exp of the exponent; the step adds
  self(s) + self(t) − 2·cross(s, t) to the running sum.  On real blocks this is the real tile of the mean discrepancy added
  to the real running sum: every intermediate value is a real, so sums, products and differences of coercions are
  coercions, exp of a real is the real exponential, and the ½ and the 0 − · are a division by 2 and a negation.
-/
import proofs.«102746_j77438260347128_2_alg».proof.Proof.MmdReal
import Idealize.ShloMosaic.PureOps.Ideal

noncomputable section

namespace Cert.TileSpec

open Idealize.ShloMosaic

/-- ‖v_r‖². -/
def rsq (v : Fin 512 → Fin 256 → EReal) (r : Fin 512) : EReal := ∑ k : Fin 256, v r k * v r k

/-- The exponent at (r, c): minus half the expanded squared distance of row r of u to row c of w. -/
def arg (u w : Fin 512 → Fin 256 → EReal) (r c : Fin 512) : EReal :=
  (0 - ((rsq u r + rsq w c) - ((2 : ℝ) : EReal) * ∑ k : Fin 256, u r k * w c k)) * ((1 / 2 : ℝ) : EReal)

/-- A self tile's sum; on a diagonal tile (`d`) the main diagonal is written 1. -/
def selfSum (d : Bool) (u w : Fin 512 → Fin 256 → EReal) : EReal :=
  ∑ r : Fin 512, ∑ c : Fin 512,
    if d = true then (if r = c then ((1 : ℝ) : EReal) else Ideal.exp (arg u w r c)) else Ideal.exp (arg u w r c)

/-- A cross tile's sum. -/
def crossSum (u w : Fin 512 → Fin 256 → EReal) : EReal := ∑ r : Fin 512, ∑ c : Fin 512, Ideal.exp (arg u w r c)

/-- The running sum after the tile. -/
def step (d : Bool) (sRow tRow sCol tCol : Fin 512 → Fin 256 → EReal) (acc : EReal) : EReal :=
  acc + ((selfSum d sRow sCol + selfSum d tRow tCol) - ((2 : ℝ) : EReal) * crossSum sRow tCol)

/-- A finite sum of reals, read in the extended reals, is the sum of the terms read there. -/
theorem coe_sum {ι : Type*} (s : Finset ι) (f : ι → ℝ) :
    ((∑ i ∈ s, f i : ℝ) : EReal) = ∑ i ∈ s, ((f i : ℝ) : EReal) := by
  classical
  refine Finset.induction_on s (by simp) ?_
  intro i s hi ih
  rw [Finset.sum_insert hi, Finset.sum_insert hi, EReal.coe_add, ih]

/-- The squared norm of a real row is real. -/
theorem rsq_coe (x : Fin 512 → Fin 256 → ℝ) (r : Fin 512) :
    rsq (fun r k => ((x r k : ℝ) : EReal)) r = ((∑ k : Fin 256, x r k * x r k : ℝ) : EReal) := by
  unfold rsq
  rw [coe_sum]
  exact Finset.sum_congr rfl fun k _ => (EReal.coe_mul _ _).symm

/-- The dot product of two real rows is real. -/
theorem dot_coe (x y : Fin 512 → Fin 256 → ℝ) (r c : Fin 512) :
    ∑ k : Fin 256, ((x r k : ℝ) : EReal) * ((y c k : ℝ) : EReal) = ((∑ k : Fin 256, x r k * y c k : ℝ) : EReal) := by
  rw [coe_sum]
  exact Finset.sum_congr rfl fun k _ => (EReal.coe_mul _ _).symm

/-- The exponent of two real rows is real. -/
theorem arg_coe (x y : Fin 512 → Fin 256 → ℝ) (r c : Fin 512) :
    arg (fun r k => ((x r k : ℝ) : EReal)) (fun c k => ((y c k : ℝ) : EReal)) r c
      = (((0 - ((∑ k : Fin 256, x r k * x r k + ∑ k : Fin 256, y c k * y c k)
            - 2 * ∑ k : Fin 256, x r k * y c k)) * (1 / 2) : ℝ) : EReal) := by
  unfold arg
  rw [rsq_coe, rsq_coe]
  have h := dot_coe x y r c
  simp only [] at h ⊢
  rw [h]
  simp only [EReal.coe_mul, EReal.coe_sub, EReal.coe_add, EReal.coe_zero]

/-- On rows cut from real row families, exp of the exponent is the real kernel entry: the real exponent
(0 − d) · ½ is −d / 2 for the expanded squared distance d. -/
theorem exp_arg_rows (a b : Fin 8192 → Fin 256 → ℝ) (g j : Fin 16) (r c : Fin 512) :
    Ideal.exp (arg (fun r k => ((a (Mmd.row g r) k : ℝ) : EReal)) (fun c k => ((b (Mmd.row j c) k : ℝ) : EReal)) r c)
      = ((Mmd.gauss a b (Mmd.row g r) (Mmd.row j c) : ℝ) : EReal) := by
  rw [arg_coe (fun r k => a (Mmd.row g r) k) (fun c k => b (Mmd.row j c) k) r c, Ideal.exp_coe]
  congr 1
  unfold Mmd.gauss Mmd.sqd Mmd.sq Mmd.dot
  congr 1
  ring

/-- A self tile's sum on real rows is the real self tile: the diagonal flag says the tile is diagonal, so the entries
written 1 are the same in both. -/
theorem selfSum_rows (a : Fin 8192 → Fin 256 → ℝ) (g j : Fin 16) (d : Bool) (hd : d = true ↔ g = j) :
    selfSum d (fun r k => ((a (Mmd.row g r) k : ℝ) : EReal)) (fun c k => ((a (Mmd.row j c) k : ℝ) : EReal))
      = ((Mmd.selfTile a g j : ℝ) : EReal) := by
  unfold selfSum Mmd.selfTile
  rw [coe_sum]
  refine Finset.sum_congr rfl fun r _ => ?_
  rw [coe_sum]
  refine Finset.sum_congr rfl fun c _ => ?_
  rw [exp_arg_rows]
  by_cases hgj : g = j
  · have hdt : d = true := hd.mpr hgj
    rw [if_pos hdt]
    by_cases hrc : r = c
    · rw [if_pos hrc, if_pos ⟨hgj, hrc⟩]
    · rw [if_neg hrc, if_neg (fun h => hrc h.2)]
  · have hdf : ¬ d = true := fun h => hgj (hd.mp h)
    rw [if_neg hdf, if_neg (fun h => hgj h.1)]

/-- A cross tile's sum on real rows is the real cross tile. -/
theorem crossSum_rows (a b : Fin 8192 → Fin 256 → ℝ) (g j : Fin 16) :
    crossSum (fun r k => ((a (Mmd.row g r) k : ℝ) : EReal)) (fun c k => ((b (Mmd.row j c) k : ℝ) : EReal))
      = ((Mmd.crossTile a b g j : ℝ) : EReal) := by
  unfold crossSum Mmd.crossTile
  rw [coe_sum]
  refine Finset.sum_congr rfl fun r _ => ?_
  rw [coe_sum]
  exact Finset.sum_congr rfl fun c _ => exp_arg_rows a b g j r c

/-- On real blocks cut from real row families at tile (g, j), the step adds the real tile. -/
theorem step_real (sr tr : Fin 8192 → Fin 256 → ℝ) (g j : Fin 16) (d : Bool) (hd : d = true ↔ g = j) (a : ℝ) :
    step d (fun r k => ((sr (Mmd.row g r) k : ℝ) : EReal)) (fun r k => ((tr (Mmd.row g r) k : ℝ) : EReal))
        (fun c k => ((sr (Mmd.row j c) k : ℝ) : EReal)) (fun c k => ((tr (Mmd.row j c) k : ℝ) : EReal)) ((a : ℝ) : EReal)
      = ((a + Mmd.tile sr tr g j : ℝ) : EReal) := by
  unfold step
  rw [selfSum_rows sr g j d hd, selfSum_rows tr g j d hd, crossSum_rows sr tr g j]
  unfold Mmd.tile
  rw [EReal.coe_add, EReal.coe_sub, EReal.coe_add, EReal.coe_mul]

end Cert.TileSpec

end
-- ==== Proof.Consts.lean ====
/-
  The float literals the two programs spell, as the extended reals their words denote: 0, 1/2, 1, 2, 2²⁶ = 67108864,
  2⁻²⁶ = 1/67108864 and +∞.  All are exact: each word is a power of two (or zero, or the infinity's word), so scaling
  by 2⁻²⁶ is dividing by 2²⁶ and multiplying by 1/2 is dividing by 2.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_pow26 : Ideal.ofBits .f32 0x4C800000#32 = ((67108864 : ℝ) : EReal) := by
  simp [Ideal.ofBits, Ideal.ieee, -EReal.coe_mul]; norm_num

theorem ofBits_inv_pow26 : Ideal.ofBits .f32 0x32800000#32 = ((1 / 67108864 : ℝ) : EReal) := by
  simp [Ideal.ofBits, Ideal.ieee, -EReal.coe_mul]; norm_num

theorem ofBits_inf : Ideal.ofBits .f32 0x7F800000#32 = ⊤ := by
  simp [Ideal.ofBits, Ideal.ieee]

end Cert.Consts

end
-- ==== Proof.LibLaneSums.lean ====
/-
  Sums along one axis, and trailing unit axes, read at coordinates.

  On the extended reals a sum of a rank-3 array [a, b, c] along its middle axis, started from the neutral element, is at
  (p, f) the plain sum over k < b of the array at (p, k, f); a sum of an [a, b] array along its last axis is at p the sum
  over k < b of the array at (p, k).  A trailing unit axis moves no element: an [a] array seen as [a, 1] reads, at
  (p, 0), the array at p; an [a, b] array seen as [a, b, 1] reads, at (p, j, 0), the array at (p, j); and an [a, b, 1]
  array spread along its unit axis to [a, b, c] reads, at (p, j, f), the array at (p, j, 0).
-/
import Idealize.ShloMosaic.PureOps.Ideal.Laws
import Idealize.ShloMosaic.Lib.ValueIdx
import Idealize.ShloMosaic.Lib.Pipeline.Value

noncomputable section

namespace Cert.LibLaneSums

open Idealize.ShloMosaic Idealize.ShloMosaic.ValueIdx

variable {α : Type}

/-! ## Sums along one axis -/

/-- The source index above (p, f) with k on the summed middle axis is (p, k, f). -/
theorem lift_mid {a b c : ℕ} (h : (⟨3, ![a, b, c]⟩ : Shape).Reduces [1] ⟨2, ![a, c]⟩) (p : Fin a) (f : Fin c) (k : Fin b) :
    h.lift (ix2 p f) k = ix3 p k f := by
  funext d; apply Fin.ext
  show h.liftVal (ix2 p f) k.val d = (ix3 p k f d).val
  unfold Shape.Reduces.liftVal
  match d with
  | ⟨0, _⟩ => rfl
  | ⟨1, _⟩ => rfl
  | ⟨2, _⟩ => rfl

/-- The source index above p with k on the summed last axis is (p, k). -/
theorem lift_last {a b : ℕ} (h : (⟨2, ![a, b]⟩ : Shape).Reduces [1] ⟨1, ![a]⟩) (p : Fin a) (k : Fin b) :
    h.lift (ix1 p) k = ix2 p k := by
  funext d; apply Fin.ext
  show h.liftVal (ix1 p) k.val d = (ix2 p k d).val
  unfold Shape.Reduces.liftVal
  match d with
  | ⟨0, _⟩ => rfl
  | ⟨1, _⟩ => rfl

/-- A sum of an [a, b, c] array along its middle axis, from the neutral element, at (p, f): the sum over k of the
    array at (p, k, f). -/
theorem sum_mid_apply {a b c : ℕ} {φ : FTy} (src : FVec Ideal (⟨3, ![a, b, c]⟩ : Shape) φ) (acc : BitVec φ.bits)
    (h : (⟨3, ![a, b, c]⟩ : Shape).Reduces [1] ⟨2, ![a, c]⟩) (hφ : FKind.Formats φ) (hacc : acc = FKind.add.neutral φ hφ)
    (p : Fin a) (f : Fin c) :
    multiReduction .add [1] (⟨2, ![a, c]⟩ : Shape) src acc h hφ hacc (ix2 p f) = ∑ k : Fin b, src (ix3 p k f) :=
  (Ideal.multiReduction_add_single src acc h hφ hacc (ix2 p f)).trans
    (Finset.sum_congr rfl fun k _ => congrArg src (lift_mid h p f k))

/-- A sum of an [a, b] array along its last axis, from the neutral element, at p: the sum over k of the array at
    (p, k). -/
theorem sum_last_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (lift_last h p k))

/-! ## Trailing unit axes -/

/-- An [a] array seen as [a, 1] reads, at (p, u), the array at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An [a, b] array seen as [a, b, 1] reads, at (p, j, u), the array at (p, j). -/
theorem shapeCast_ab_ab1_apply {a b : ℕ} (x : (⟨2, ![a, b]⟩ : Shape).Idx → α)
    (h : (⟨2, ![a, b]⟩ : Shape).ShapeCasts ⟨3, ![a, b, 1]⟩) (p : Fin a) (j : Fin b) (u : Fin 1) :
    shapeCast ⟨3, ![a, b, 1]⟩ x h (ix3 p j u) = x (ix2 p j) :=
  shapeCast_apply x h _ _ (by
    have hu : u.val = 0 := by omega
    rw [Shape.rowMajor_val_three, Shape.rowMajor_val_two]
    show p.val * b + j.val = (p.val * b + j.val) * 1 + u.val
    omega)

/-- An [a, b, 1] array spread along its unit axis to [a, b, c] reads, at (p, j, f), the array at (p, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (j : Fin b) (f : Fin c) :
    broadcastTo ⟨3, ![a, b, c]⟩ v h (ix3 p j f) = v (ix3 p j (0 : Fin 1)) := by
  refine broadcastTo_apply v h (ix3 p j f) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

end Cert.LibLaneSums

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.LibDotNT.lean ====
/-
  A matrix product against a transposed right operand, read at an entry.  For dimension numbers that contract the
  second axis of BOTH operands (no batch axes), the product of an M × K array by an N × K array at entry (r, c) is the
  sum over k < K of left(r, k) · right(c, k) — the inner product of the left operand's row r with the right operand's
  row c — for the kernel's product into a zero accumulator and for the host's product alike.  The contraction index of
  the dimension numbers is a one-coordinate tuple; the sum is re-indexed by that coordinate.
-/
import Idealize.ShloMosaic.PureOps.Ideal.Laws
import Idealize.ShloMosaic.Lib.ValueIdx

noncomputable section

namespace Cert.LibDotNT

open Idealize.ShloMosaic Idealize.ShloMosaic.ValueIdx

variable {M K N : Nat} {φ₁ φ₂ : FTy}
  (D : DotDims (⟨2, ![M, K]⟩ : Shape) (⟨2, ![N, K]⟩ : Shape) (⟨2, ![M, N]⟩ : Shape))
  (hrank : D.contr.rank = 1) (hsize : D.contr.size ⟨0, by omega⟩ = K)
  (hlc : D.lhsContracting = [1]) (hrc : D.rhsContracting = [1])
  (hL0 : ∀ j k, (D.lhsIdx j k 0).val = (j 0).val) (hR0 : ∀ j k, (D.rhsIdx j k 0).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR0 in
/-- The right operand's index there is (c, k): its row is the output's column. -/
theorem rhsIdx_eq (r : Fin M) (c : Fin N) (k : Fin K) :
    D.rhsIdx (ix2 r c) ((contrEquiv1 D K hrank hsize).symm k) = ix2 c k := by
  funext a; apply Fin.ext
  match a with
  | ⟨0, _⟩ => exact hR0 _ _
  | ⟨1, _⟩ => exact (D.rhsIdx_val_of_single hrc _ _).trans (contrEquiv1_symm_val D K hrank hsize k)

include hrank hsize hlc hrc hL0 hR0 in
/-- The sum over the contraction index is the sum over k < K of the two operands at (r, k) and (c, k). -/
theorem sum_contr (lhs : FVec Ideal (⟨2, ![M, K]⟩ : Shape) φ₁) (rhs : FVec Ideal (⟨2, ![N, K]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 c k) := by
  rw [← Equiv.sum_comp (contrEquiv1 D K hrank hsize).symm]
  refine Finset.sum_congr rfl fun k _ => ?_
  rw [lhsIdx_eq D hrank hsize hlc hL0 r c k, rhsIdx_eq D hrank hsize hrc hR0 r c k]

include hrank hsize hlc hrc hL0 hR0 in
/-- The kernel's product into the zero accumulator, at an entry. -/
theorem matmul_zero_apply (prec : Option ContractPrecision) (lhs : FVec Ideal (⟨2, ![M, K]⟩ : Shape) φ₁)
    (rhs : FVec Ideal (⟨2, ![N, K]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 c k) :=
  (Ideal.matmul_constant_zero_apply D prec lhs rhs (ix2 r c)).trans (sum_contr D hrank hsize hlc hrc hL0 hR0 lhs rhs r c)

include hrank hsize hlc hrc hL0 hR0 in
/-- The host's product, at an entry, whatever its schedule. -/
theorem dotGeneral_apply (prec : Option ContractPrecision) (sched : HostSchedule) (lhs : FVec Ideal (⟨2, ![M, K]⟩ : Shape) φ₁)
    (rhs : FVec Ideal (⟨2, ![N, K]⟩ : Shape) φ₂) (r : Fin M) (c : Fin N) :
    FloatOps.dotGeneral D prec sched lhs rhs (ix2 r c) = ∑ k : Fin K, lhs (ix2 r k) * rhs (ix2 c k) :=
  (Ideal.dotGeneral_apply D prec sched lhs rhs (ix2 r c)).trans (sum_contr D hrank hsize hlc hrc hL0 hR0 lhs rhs r c)

end Cert.LibDotNT

end
-- ==== Proof.KernelTile.lean ====
/-
  The body's arithmetic at one grid point, read index by index on the extended reals.

  The body forms, three times over (first family with itself, second with itself, first with second), the same chain:
  the squared norms of the rows of the row block as a column and of the column block as a row, the product of the row
  block with the transpose of the column block, the exponent  (0 − ((‖u_r‖² + ‖w_c‖²) − 2·u_r·w_c))·½  at every (r, c),
  its exponential — with the main diagonal written 1 on the two self pairings when the tile is diagonal — and the sum
  of all 512 × 512 entries.  The repeated pieces are named once (row sums as a column and as a row, the product block,
  the exponent block, the masked exponential, the total), each is read at explicit coordinates, and the update
  running sum + (self + self − 2·cross)  is then the specification's tile step, entry by entry.
-/
import proofs.«102746_j77438260347128_2_alg».proof.Proof.KernelPieces
import proofs.«102746_j77438260347128_2_alg».proof.Proof.TileSpec
import proofs.«102746_j77438260347128_2_alg».proof.Proof.Consts
import proofs.«102746_j77438260347128_2_alg».proof.Proof.LibLaneSums
import proofs.«102746_j77438260347128_2_alg».proof.Proof.LibUnitAxes
import proofs.«102746_j77438260347128_2_alg».proof.Proof.LibDotNT
import Idealize.ShloMosaic.Lib.ValueLayout

noncomputable section

namespace Cert.KernelIdeal.Tile

open Idealize.ShloMosaic Idealize.ShloMosaic.ValueIdx Cert.KernelIdeal Cert.KernelIdeal.Gen

/-- A 512 × 256 block as a family of rows. -/
def rows (v : Vec Ideal S512x256 .f32) : Fin 512 → Fin 256 → EReal := fun r k => v (ix2 r k)

/-! ## The body's repeated pieces, named -/

/-- The row sums of a 512 × 256 block, as a column. -/
def sumCol (q : FVec Ideal S512x256 .f32) : FVec Ideal S512x1 .f32 :=
  have v86 : FVec Ideal S512 .f32 := multiReduction .add [1] S512 q 0x00000000#32 reduces_S512x256_S512 (.inl rfl) rfl
  have v87 : FVec Ideal S512x1 .f32 := shapeCast S512x1 v86 shapeCasts_S512_S512x1
  v87

/-- The row sums of a 512 × 256 block, as a row. -/
def sumRow (q : FVec Ideal S512x256 .f32) : FVec Ideal S1x512 .f32 :=
  transpose S1x512 [1, 0] (sumCol q) transposes_S512x1_p1_0_S1x512

/-- The product of one block with the transpose of another. -/
def dotNT (u w : Vec Ideal S512x256 .f32) : FVec Ideal S512x512 .f32 :=
  have v89 : FVec Ideal S512x256 .bf16 := truncf .bf16 u bitsLt_bf16_f32
  have v90 : FVec Ideal S512x256 .bf16 := truncf .bf16 w bitsLt_bf16_f32
  have cst_25 : FVec Ideal S512x512 .f32 := constant S512x512 .f32 0x00000000#32
  matmul dot_S512x256_S512x256_S512x512_1_1_0_0_n_n none v89 v90 cst_25

/-- The exponent block from a column `a` of squared norms, a row `b` of squared norms and a product block `d`. -/
def expoOf (a : FVec Ideal S512x1 .f32) (b : FVec Ideal S1x512 .f32) (d : FVec Ideal S512x512 .f32) : FVec Ideal S512x512 .f32 :=
  have v92 : FVec Ideal S512x512 .f32 := broadcastTo S512x512 a broadcasts_S512x1_S512x512
  have v93 : FVec Ideal S512x512 .f32 := broadcastTo S512x512 b broadcasts_S1x512_S512x512
  have v94 : FVec Ideal S512x512 .f32 := addf v92 v93
  have cst_26 : Ideal .f32 := Scalar.ofBits .f32 0x40000000#32
  have v95 : FVec Ideal S512x512 .f32 := broadcast S512x512 cst_26
  have v96 : FVec Ideal S512x512 .f32 := mulf v95 d
  have v97 : FVec Ideal S512x512 .f32 := subf v94 v96
  have cst_27 : Ideal .f32 := Scalar.ofBits .f32 0x00000000#32
  have v98 : FVec Ideal S512x512 .f32 := broadcast S512x512 cst_27
  have v99 : FVec Ideal S512x512 .f32 := subf v98 v97
  have cst_28 : Ideal .f32 := Scalar.ofBits .f32 0x3F000000#32
  have v100 : FVec Ideal S512x512 .f32 := broadcast S512x512 cst_28
  mulf v99 v100

/-- The exponential of a block, with the main diagonal written 1 when the bit is set. -/
def masked (b : BitVec 1) (e : FVec Ideal S512x512 .f32) : FVec Ideal S512x512 .f32 :=
  have v40 : FVec Ideal S512x512 .f32 := exp e
  have v41 : IVec S512x512 32 := iota .tc S512x512 32 [0] iota_S512x512_d0_w32
  have v42 : IVec S512x512 32 := iota .tc S512x512 32 [1] iota_S512x512_d1_w32
  have v43 : IVec S512x512 1 := cmpi .eq v41 v42
  have cst_11 : Ideal .f32 := Scalar.ofBits .f32 0x3F800000#32
  have v44 : FVec Ideal S512x512 .f32 := broadcast S512x512 cst_11
  have v45 : FVec Ideal S512x512 .f32 := select v43 v44 v40
  Scalar.select b v45 v40

/-- The sum of all entries of a 512 × 512 block, as a 1 × 1 array. -/
def total (x : FVec Ideal S512x512 .f32) : FVec Ideal S1x1 .f32 :=
  have v47 : FVec Ideal S512 .f32 := multiReduction .add [1] S512 x 0x00000000#32 reduces_S512x512_S512 (.inl rfl) rfl
  have v48 : FVec Ideal S512x1 .f32 := shapeCast S512x1 v47 shapeCasts_S512_S512x1
  have v49 : FVec Ideal S1 .f32 := multiReduction .add [0] S1 v48 0x00000000#32 reduces_S512x1_S1 (.inl rfl) rfl
  shapeCast S1x1 v49 shapeCasts_S1_S1x1

/-! ## The payloads in these names -/

/-- The squared row norms of a block are the row sums of its entrywise square. -/
theorem pay7_eq (v : Vec Ideal S512x256 .f32) : k0_pay7 (F := Ideal) v = sumCol (mulf v v) := rfl

/-- The entrywise square of a block. -/
theorem pay8_eq (v : Vec Ideal S512x256 .f32) : k0_pay8 (F := Ideal) v = mulf v v := rfl

/-- The exponent block of two blocks, from their squared norms and their product. -/
theorem pay4_eq (u w : Vec Ideal S512x256 .f32) :
    k0_pay4 (F := Ideal) u w = expoOf (sumCol (mulf u u)) (sumRow (mulf w w)) (dotNT u w) := rfl

/-- A self tile's sum from an exponent block: the total of its masked exponential. -/
theorem pay5_eq (b : BitVec 1) (e : FVec Ideal S512x512 .f32) : k0_pay5 (F := Ideal) b e = total (masked b e) := rfl

/-- The second family's self tile's sum, with its exponent block formed in place. -/
theorem pay6_eq (u w : Vec Ideal S512x256 .f32) (b : BitVec 1) :
    k0_pay6 (F := Ideal) u w b = total (masked b (expoOf (sumCol (mulf u u)) (sumRow (mulf w w)) (dotNT u w))) := rfl

/-- The update: the running sum plus the two self sums minus twice the cross sum, whose exponent block is formed in place
    from the given column of squared norms and the given entrywise square. -/
theorem pay1_eq (u w : Vec Ideal S512x256 .f32) (v50 v81 : FVec Ideal S1x1 .f32) (v84 : FVec Ideal S512x1 .f32)
    (v85 : FVec Ideal S512x256 .f32) (acc : Vec Ideal S1x1 .f32) :
    k0_pay1 (F := Ideal) u w v50 v81 v84 v85 acc
      = shapeCast S1x1 (addf acc (subf (addf v50 v81)
          (mulf (broadcast S1x1 (Scalar.ofBits (F := Ideal) .f32 0x40000000#32)) (total (exp (expoOf v84 (sumRow v85) (dotNT u w)))))))
          shapeCasts_S1x1_S1x1 := rfl

/-! ## Each piece at an index -/

/-- The row sums as a column, at (r, 0): the sum of row r. -/
theorem sumCol_apply (q : FVec Ideal S512x256 .f32) (r : Fin 512) (u : Fin 1) :
    sumCol q (ix2 r u) = ∑ k : Fin 256, q (ix2 r k) := by
  unfold sumCol
  exact (LibLaneSums.shapeCast_a_a1_apply _ _ r u).trans (LibLaneSums.sum_last_apply q _ _ _ _ r)

/-- The row sums as a row, at (0, c): the sum of row c. -/
theorem sumRow_apply (q : FVec Ideal S512x256 .f32) (u : Fin 1) (c : Fin 512) :
    sumRow q (ix2 u c) = ∑ k : Fin 256, q (ix2 c k) := by
  unfold sumRow
  exact (transpose_ix2_apply _ _ u c).trans (sumCol_apply q c u)

/-- The left operand's row coordinate is the output's row coordinate. -/
theorem dot_hL0 (j : S512x512.Idx) (k : dot_S512x256_S512x256_S512x512_1_1_0_0_n_n.contr.Idx) :
    (dot_S512x256_S512x256_S512x512_1_1_0_0_n_n.lhsIdx j k 0).val = (j 0).val := by
  unfold DotDims.lhsIdx
  rw [dif_neg (show ¬(0 : Fin S512x256.rank) ∈ dot_S512x256_S512x256_S512x512_1_1_0_0_n_n.lhsBatch by decide),
    dif_pos (show (0 : Fin S512x256.rank) ∈ dot_S512x256_S512x256_S512x512_1_1_0_0_n_n.lhsNonContracting by decide)]
  rfl

/-- The right operand's row coordinate is the output's column coordinate. -/
theorem dot_hR0 (j : S512x512.Idx) (k : dot_S512x256_S512x256_S512x512_1_1_0_0_n_n.contr.Idx) :
    (dot_S512x256_S512x256_S512x512_1_1_0_0_n_n.rhsIdx j k 0).val = (j 1).val := by
  unfold DotDims.rhsIdx
  rw [dif_neg (show ¬(0 : Fin S512x256.rank) ∈ dot_S512x256_S512x256_S512x512_1_1_0_0_n_n.rhsBatch by decide),
    dif_pos (show (0 : Fin S512x256.rank) ∈ dot_S512x256_S512x256_S512x512_1_1_0_0_n_n.rhsNonContracting by decide)]
  rfl

/-- The product block at (r, c): the inner product of row r of the first block with row c of the second. -/
theorem dotNT_apply (u w : Vec Ideal S512x256 .f32) (r c : Fin 512) :
    dotNT u w (ix2 r c) = ∑ k : Fin 256, u (ix2 r k) * w (ix2 c k) := by
  unfold dotNT
  exact LibDotNT.matmul_zero_apply dot_S512x256_S512x256_S512x512_1_1_0_0_n_n rfl rfl rfl rfl dot_hL0 dot_hR0 none
    (truncf .bf16 u bitsLt_bf16_f32) (truncf .bf16 w bitsLt_bf16_f32) r c

/-- The exponent block at (r, c). -/
theorem expoOf_apply (a : FVec Ideal S512x1 .f32) (b : FVec Ideal S1x512 .f32) (d : FVec Ideal S512x512 .f32) (r c : Fin 512) :
    expoOf a b d (ix2 r c)
      = (0 - ((a (ix2 r (0 : Fin 1)) + b (ix2 (0 : Fin 1) c)) - ((2 : ℝ) : EReal) * d (ix2 r c))) * ((1 / 2 : ℝ) : EReal) := by
  unfold expoOf
  simp only [mulf_apply, subf_apply, addf_apply, broadcast_apply, Ideal.ofBits_def, Cert.Consts.ofBits_zero,
    Cert.Consts.ofBits_two, Cert.Consts.ofBits_half]
  rw [LibUnitAxes.broadcastTo_a1_ab_apply a _ r c, broadcastTo_1b_ab_apply b _ r c]

/-- Whether two coordinates below 512 agree, as the comparison of their 32-bit words computes it. -/
theorem eq_bit (r c : Fin 512) :
    IntOp.cmpi .eq (BitVec.ofNat 32 r.val) (BitVec.ofNat 32 c.val) = if r = c then 1#1 else 0#1 := by
  have hr := r.isLt
  have hc := c.isLt
  by_cases h : r = c
  · subst h; simp [IntOp.cmpi]
  · have hne : BitVec.ofNat 32 r.val ≠ BitVec.ofNat 32 c.val := by
      intro e
      have := congrArg BitVec.toNat e
      simp only [BitVec.toNat_ofNat] at this
      exact h (Fin.ext (by omega))
    have hb : (BitVec.ofNat 32 r.val == BitVec.ofNat 32 c.val) = false := beq_eq_false_iff_ne.mpr hne
    simp [IntOp.cmpi, h, hb]

/-- The masked exponential at (r, c). -/
theorem masked_apply (b : BitVec 1) (e : FVec Ideal S512x512 .f32) (r c : Fin 512) :
    masked b e (ix2 r c)
      = if decide (b = 1#1) = true then (if r = c then ((1 : ℝ) : EReal) else Ideal.exp (e (ix2 r c)))
        else Ideal.exp (e (ix2 r c)) := by
  have hd : cmpi .eq (iota .tc S512x512 32 [0] iota_S512x512_d0_w32) (iota .tc S512x512 32 [1] iota_S512x512_d1_w32) (ix2 r c)
      = if r = c then 1#1 else 0#1 := by
    show IntOp.cmpi .eq (iota .tc S512x512 32 [0] iota_S512x512_d0_w32 (ix2 r c)) (iota .tc S512x512 32 [1] iota_S512x512_d1_w32 (ix2 r c)) = _
    rw [iota_single_apply, iota_single_apply]
    exact eq_bit r c
  unfold masked
  rcases BitVec.eq_zero_or_eq_one b with hb | hb <;> subst hb
  · rw [select_zero]
    simp only [exp, Ideal.exp_def]
    rfl
  · rw [select_one, select_apply, hd]
    by_cases h : r = c
    · simp only [h, if_true, select_one, broadcast_apply, Ideal.ofBits_def, Cert.Consts.ofBits_one, decide_true]
    · simp only [h, if_false, select_zero, exp, Ideal.exp_def, decide_true, if_true]

/-- The source index above a column's one entry with k on the summed first axis is (k, u). -/
theorem lift_first {a : ℕ} (h : (⟨2, ![a, 1]⟩ : Shape).Reduces [0] ⟨1, ![1]⟩) (u : Fin 1) (k : Fin a) :
    h.lift (ix1 u) k = ix2 k u := by
  funext d; apply Fin.ext
  show h.liftVal (ix1 u) k.val d = (ix2 k u d).val
  unfold Shape.Reduces.liftVal
  match d with
  | ⟨0, _⟩ => rfl
  | ⟨1, _⟩ => rfl

/-- A sum of an [a, 1] column along its first axis, from the neutral element, at its one entry: the sum over k of the
    column at (k, 0). -/
theorem sum_first_col_apply {a : ℕ} {φ : FTy} (src : FVec Ideal (⟨2, ![a, 1]⟩ : Shape) φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] (⟨1, ![1]⟩ : Shape) src acc h hφ hacc (ix1 u) = ∑ k : Fin a, src (ix2 k u) :=
  (Ideal.multiReduction_add_single src acc h hφ hacc (ix1 u)).trans
    (Finset.sum_congr rfl fun k _ => congrArg src (lift_first h u k))

/-- The sum of all entries, at the one index of the 1 × 1 result: the double sum over rows and columns. -/
theorem total_apply (x : FVec Ideal S512x512 .f32) (p q : Fin 1) :
    total x (ix2 p q) = ∑ r : Fin 512, ∑ c : Fin 512, x (ix2 r c) := by
  unfold total
  refine (LibLaneSums.shapeCast_a_a1_apply _ _ p q).trans ?_
  refine (sum_first_col_apply _ _ _ _ _ p).trans ?_
  exact Finset.sum_congr rfl fun r _ =>
    (LibLaneSums.shapeCast_a_a1_apply _ _ r p).trans (LibLaneSums.sum_last_apply x _ _ _ _ r)

/-! ## The tile sums -/

/-- The exponent of two blocks at (r, c) is the specification's. -/
theorem arg_apply (u w : Vec Ideal S512x256 .f32) (r c : Fin 512) :
    expoOf (sumCol (mulf u u)) (sumRow (mulf w w)) (dotNT u w) (ix2 r c) = Cert.TileSpec.arg (rows u) (rows w) r c := by
  rw [expoOf_apply, sumCol_apply, sumRow_apply, dotNT_apply]
  rfl

/-- The body's exponent block, at (r, c). -/
theorem pay4_apply (u w : Vec Ideal S512x256 .f32) (r c : Fin 512) :
    k0_pay4 (F := Ideal) u w (ix2 r c) = Cert.TileSpec.arg (rows u) (rows w) r c := by
  rw [pay4_eq]; exact arg_apply u w r c

/-- A self tile's sum. -/
theorem self_apply (u w : Vec Ideal S512x256 .f32) (b : BitVec 1) (p q : Fin 1) :
    total (masked b (expoOf (sumCol (mulf u u)) (sumRow (mulf w w)) (dotNT u w))) (ix2 p q)
      = Cert.TileSpec.selfSum (decide (b = 1#1)) (rows u) (rows w) := by
  rw [total_apply]
  simp only [masked_apply, arg_apply]
  rfl

/-- A cross tile's sum. -/
theorem cross_apply (u w : Vec Ideal S512x256 .f32) (p q : Fin 1) :
    total (exp (expoOf (sumCol (mulf u u)) (sumRow (mulf w w)) (dotNT u w))) (ix2 p q)
      = Cert.TileSpec.crossSum (rows u) (rows w) := by
  rw [total_apply]
  simp only [exp, Ideal.exp_def, arg_apply]
  rfl

/-- The body's update of the running sum is the tile step of its four blocks. -/
theorem step_eq (v12 v14 v16 v18 : Vec Ideal S512x256 .f32) (b : BitVec 1) (acc : Vec Ideal S1x1 .f32) :
    k0_pay1 (F := Ideal) v12 v18 (k0_pay5 b (k0_pay4 v12 v16)) (k0_pay6 v14 v18 b) (k0_pay7 v12) (k0_pay8 v18) acc
      = fun _ => Cert.TileSpec.step (decide (b = 1#1)) (rows v12) (rows v14) (rows v16) (rows v18) (acc (ix2 (0 : Fin 1) (0 : Fin 1))) := by
  funext j
  obtain ⟨p, q, rfl⟩ : ∃ (p q : Fin 1), j = ix2 p q := ⟨j 0, j 1, eq_ix2 j⟩
  have hp : p = 0 := Subsingleton.elim _ _
  have hq : q = 0 := Subsingleton.elim _ _
  subst hp hq
  rw [pay1_eq, pay5_eq, pay6_eq, pay4_eq, pay7_eq, pay8_eq, shapeCast_self]
  simp only [addf_apply, subf_apply, mulf_apply, broadcast_apply, Ideal.ofBits_def, Cert.Consts.ofBits_two, self_apply,
    cross_apply]
  rfl

end Cert.KernelIdeal.Tile

end
-- ==== Proof.GridFacts.lean ====
/-
  Where each grid point's tiles sit. The grid has 2 · 8 · 16 = 256 points; point t has coordinates
  (t / 128, (t % 128) / 16, t % 16). The body's scalar chains compute, from these coordinates, the first row of the row
  tile, ((t / 128) · 8 + (t % 128) / 16) · 512 = (t / 16) · 512, the first row of the column tile, (t % 16) · 512, and the
  bit that says the two tiles are the same, (t / 128) · 8 + (t % 128) / 16 = t % 16, that is t / 16 = t % 16. These
  three facts about 32-bit words are decided once over the 256 points; the rest reads a unit-stride rectangle's index:
  local row r of a tile that starts at row g · 512 is row g · 512 + r of the array, and local column k is column k.
-/
import proofs.«102746_j77438260347128_2_alg».proof.Proof.KernelPieces
import proofs.«102746_j77438260347128_2_alg».proof.Proof.MmdReal
import Idealize.ShloMosaic.Lib.Decide
import Idealize.ShloMosaic.Lib.ValueIdx

set_option maxRecDepth 16384

namespace Cert.KernelIdeal.GridFacts

open Idealize.ShloMosaic Idealize.ShloMosaic.ValueIdx Cert.KernelIdeal Cert.KernelIdeal.Gen Cert.KernelIdeal.Pieces

/-- The row tile of point t starts at row (t / 16) · 512, column 0 — decided over the grid. -/
theorem off1_grid : ∀ t : Fin cfg0.N,
    (k0_off1 (grid0.coords t)) 0 = (t.val / 16) * 512 ∧ (k0_off1 (grid0.coords t)) 1 = 0 :=
  (by decide +kernel : ∀ t : Fin grid0.N,
    (k0_off1 (grid0.coords t)) 0 = (t.val / 16) * 512 ∧ (k0_off1 (grid0.coords t)) 1 = 0)

/-- The column tile of point t starts at row (t % 16) · 512, column 0 — decided over the grid. -/
theorem off2_grid : ∀ t : Fin cfg0.N,
    (k0_off2 (grid0.coords t)) 0 = (t.val % 16) * 512 ∧ (k0_off2 (grid0.coords t)) 1 = 0 :=
  (by decide +kernel : ∀ t : Fin grid0.N,
    (k0_off2 (grid0.coords t)) 0 = (t.val % 16) * 512 ∧ (k0_off2 (grid0.coords t)) 1 = 0)

/-- The diagonal bit of point t is set exactly when t / 16 = t % 16 — decided over the grid. -/
theorem diag_grid : ∀ t : Fin cfg0.N, diagBit (grid0.coords t) = 1#1 ↔ t.val / 16 = t.val % 16 :=
  (by decide +kernel : ∀ t : Fin grid0.N, diagBit (grid0.coords t) = 1#1 ↔ t.val / 16 = t.val % 16)

/-- A point's number is below 256. -/
theorem lt_256 (t : Fin cfg0.N) : t.val < 256 := lt_of_lt_of_eq t.isLt N_0

/-- The diagonal bit is set exactly at the points whose row tile is their column tile. -/
theorem diag_iff (t : Fin cfg0.N) : diagBit (grid0.coords t) = 1#1 ↔ Mmd.fin16 (t.val / 16) = Mmd.fin16 t.val := by
  rw [diag_grid t]
  have ht := lt_256 t
  constructor
  · intro h
    apply Fin.ext
    show (t.val / 16) % 16 = t.val % 16
    omega
  · intro h
    have h' : (t.val / 16) % 16 = t.val % 16 := congrArg Fin.val h
    omega

/-- A unit-stride 512 × 256 rectangle of the array that starts at row g · 512, column 0, read at local (r, k), is the
    array at (g · 512 + r, k): on each axis the rectangle's index is the offset plus the local coordinate. -/
theorem ld_unit_apply {F : FTy → Type} [FloatOps F] (x : Vec F S8192x256 .f32) (off : Fin 2 → Nat)
    (inb : ∀ a, off a + S512x256.size a ≤ S8192x256.size a) (g : Fin 16)
    (h0 : off 0 = g.val * 512) (h1 : off 1 = 0) (r : Fin 512) (k : Fin 256) :
    View.ld x (Rect.unit (s := S8192x256) off S512x256.size inb) (ix2 r k) = x (ix2 (Mmd.row g r) k) := by
  show x _ = x _
  refine congrArg x ?_
  funext a
  apply Fin.ext
  match a with
  | ⟨0, _⟩ =>
    show off 0 + 1 * r.val = g.val * 512 + r.val
    omega
  | ⟨1, _⟩ =>
    show off 1 + 1 * k.val = k.val
    omega

/-- The row tile at point t is rows (t/16)·512 … of the array. -/
theorem rowTile_apply {F : FTy → Type} [FloatOps F] (t : Fin cfg0.N) (x : Vec F S8192x256 .f32) (r : Fin 512) (k : Fin 256) :
    rowTile (grid0.coords t) x (ix2 r k) = x (ix2 (Mmd.row (Mmd.fin16 (t.val / 16)) r) k) := by
  have ht := lt_256 t
  obtain ⟨h0, h1⟩ := off1_grid t
  have hg : (Mmd.fin16 (t.val / 16)).val = t.val / 16 := by
    show (t.val / 16) % 16 = t.val / 16
    omega
  exact ld_unit_apply x (k0_off1 (grid0.coords t)) (k0_off1_inb (grid0.coords t)) (Mmd.fin16 (t.val / 16))
    (by rw [h0, hg]) h1 r k

/-- The column tile at point t is rows (t%16)·512 … of the array. -/
theorem colTile_apply {F : FTy → Type} [FloatOps F] (t : Fin cfg0.N) (x : Vec F S8192x256 .f32) (c : Fin 512) (k : Fin 256) :
    colTile (grid0.coords t) x (ix2 c k) = x (ix2 (Mmd.row (Mmd.fin16 t.val) c) k) := by
  obtain ⟨h0, h1⟩ := off2_grid t
  exact ld_unit_apply x (k0_off2 (grid0.coords t)) (k0_off2_inb (grid0.coords t)) (Mmd.fin16 t.val)
    (by rw [h0]; rfl) h1 c k

end Cert.KernelIdeal.GridFacts
-- ==== Proof.KernelValue.lean ====
/-
  The idealized kernel's result, on real inputs: the mean discrepancy.

  The grid's 256 points are visited in order, 128 per core; point t handles tile (t / 16, t % 16) of the 16 × 16 tiles of index
  pairs.  A running sum, carried from point to point, is reset to 0 at a core's first point (t % 128 = 0) and copied to the
  core's entry of the output array at its last (t % 128 = 127).  By induction on the point, after point t the running sum is the
  sum of the real tiles from the start of the core's run through t; so the output array ends at the two cores' totals, each
  entry written once, by its core's last point.  The host lines after the region add the two entries to 0 and scale by 2⁻²⁶:
  the mean over all pairs, because the tiles partition the pairs.
-/
import proofs.«102746_j77438260347128_2_alg».proof.Proof.KernelPieces
import proofs.«102746_j77438260347128_2_alg».proof.Proof.KernelTile
import proofs.«102746_j77438260347128_2_alg».proof.Proof.GridFacts
import proofs.«102746_j77438260347128_2_alg».proof.Proof.TileSpec
import proofs.«102746_j77438260347128_2_alg».proof.Proof.MmdReal
import proofs.«102746_j77438260347128_2_alg».proof.Proof.Consts
import Idealize.ShloMosaic.Lib.Pipeline.Value
import Idealize.ShloMosaic.Lib.Decide
import Idealize.ShloMosaic.Lib.StableHlo.Run
import Idealize.ShloMosaic.Lib.ValueIdx
import Idealize.ShloMosaic.PureOps.Ideal.Laws

set_option maxRecDepth 16384

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Pieces

variable (m : (ℓ : Loc nD τ sig) → Buf (Elt Ideal) ℓ) (ρ : Dev nD → PrngReg)
variable (sr tr : Fin 8192 → Fin 256 → ℝ)

/-- One point's update on real inputs: the real running sum plus the point's real tile. -/
theorem accStep_real (t : Fin cfg0.N) (x0 x1 : Vec Ideal S8192x256 .f32)
    (h0 : ∀ (i : Fin 8192) (k : Fin 256), x0 (ix2 i k) = ((sr i k : ℝ) : EReal))
    (h1 : ∀ (i : Fin 8192) (k : Fin 256), x1 (ix2 i k) = ((tr i k : ℝ) : EReal))
    (acc : Vec Ideal S1x1 .f32) (a : ℝ) (ha : acc = fun _ => ((a : ℝ) : EReal)) :
    accStep (F := Ideal) (grid0.coords t) x0 x1 acc = fun _ => ((a + Mmd.tileAt sr tr t.val : ℝ) : EReal) := by
  subst ha
  unfold accStep
  rw [Cert.KernelIdeal.Tile.step_eq]
  funext _
  have e1 : Cert.KernelIdeal.Tile.rows (rowTile (grid0.coords t) x0)
      = fun r k => ((sr (Mmd.row (Mmd.fin16 (t.val / 16)) r) k : ℝ) : EReal) :=
    funext fun r => funext fun k => (Cert.KernelIdeal.GridFacts.rowTile_apply t x0 r k).trans (h0 _ _)
  have e2 : Cert.KernelIdeal.Tile.rows (rowTile (grid0.coords t) x1)
      = fun r k => ((tr (Mmd.row (Mmd.fin16 (t.val / 16)) r) k : ℝ) : EReal) :=
    funext fun r => funext fun k => (Cert.KernelIdeal.GridFacts.rowTile_apply t x1 r k).trans (h1 _ _)
  have e3 : Cert.KernelIdeal.Tile.rows (colTile (grid0.coords t) x0)
      = fun r k => ((sr (Mmd.row (Mmd.fin16 t.val) r) k : ℝ) : EReal) :=
    funext fun r => funext fun k => (Cert.KernelIdeal.GridFacts.colTile_apply t x0 r k).trans (h0 _ _)
  have e4 : Cert.KernelIdeal.Tile.rows (colTile (grid0.coords t) x1)
      = fun r k => ((tr (Mmd.row (Mmd.fin16 t.val) r) k : ℝ) : EReal) :=
    funext fun r => funext fun k => (Cert.KernelIdeal.GridFacts.colTile_apply t x1 r k).trans (h1 _ _)
  rw [e1, e2, e3, e4]
  exact Cert.TileSpec.step_real sr tr (Mmd.fin16 (t.val / 16)) (Mmd.fin16 t.val) _
    (by rw [decide_eq_true_iff]; exact Cert.KernelIdeal.GridFacts.diag_iff t) a

/-- Each input's block is the whole array at every point: its window has one block, at index (0, 0). -/
theorem iblk0 (c : Dev nD) (t : Fin cfg0.N) : (iblk m c 0 t : Vec Ideal S8192x256 .f32) = V m c main_arg0 := by
  funext y
  unfold iblk
  rw [View.read_apply]
  show V m c main_arg0 _ = V m c main_arg0 y
  congr 1
  funext a
  apply Fin.ext
  match a with
  | ⟨0, _⟩ => show win0_0.index t 0 * 8192 + 1 * (y 0).val = (y 0).val; rw [show win0_0.index t 0 = 0 from rfl]; omega
  | ⟨1, _⟩ => show win0_0.index t 1 * 256 + 1 * (y 1).val = (y 1).val; rw [show win0_0.index t 1 = 0 from rfl]; omega

theorem iblk1 (c : Dev nD) (t : Fin cfg0.N) : (iblk m c 1 t : Vec Ideal S8192x256 .f32) = V m c main_arg1 := by
  funext y
  unfold iblk
  rw [View.read_apply]
  show V m c main_arg1 _ = V m c main_arg1 y
  congr 1
  funext a
  apply Fin.ext
  match a with
  | ⟨0, _⟩ => show win0_1.index t 0 * 8192 + 1 * (y 0).val = (y 0).val; rw [show win0_1.index t 0 = 0 from rfl]; omega
  | ⟨1, _⟩ => show win0_1.index t 1 * 256 + 1 * (y 1).val = (y 1).val; rw [show win0_1.index t 1 = 0 from rfl]; omega

/-- The running sum after the point at position n, as a real: the tiles from the start of the core's run through n. -/
def accR (n : ℕ) : ℝ := ∑ q ∈ Finset.range (n % 128 + 1), Mmd.tileAt sr tr (n - n % 128 + q)

theorem accR_start (n : ℕ) (h : n % 128 = 0) : accR sr tr n = 0 + Mmd.tileAt sr tr n := by
  unfold accR
  rw [h, Finset.sum_range_one]
  simp

theorem accR_succ (n : ℕ) (h : ¬(n + 1) % 128 = 0) : accR sr tr (n + 1) = accR sr tr n + Mmd.tileAt sr tr (n + 1) := by
  unfold accR
  have e1 : (n + 1) % 128 = n % 128 + 1 := by omega
  have e2 : n + 1 - (n % 128 + 1) = n - n % 128 := by omega
  rw [e1, e2, Finset.sum_range_succ]
  congr 2
  omega

/-- The zero a core's first point stores. -/
theorem pay3_zero : k0_pay3 (F := Ideal) = fun _ => ((0 : ℝ) : EReal) := by
  funext i
  unfold k0_pay3
  simp only [shapeCast_self]
  show Ideal.ofBits .f32 0x00000000#32 = _
  rw [Cert.Consts.ofBits_zero, EReal.coe_zero]

/-- The copy to the output block of a constant block is that constant. -/
theorem pay2_const (a : EReal) : k0_pay2 (F := Ideal) (fun _ => a) = fun _ => a := by
  funext i
  unfold k0_pay2
  rfl

variable (c : Dev nD)
variable (h0 : ∀ (i : Fin 8192) (k : Fin 256), V m c main_arg0 (ix2 i k) = ((sr i k : ℝ) : EReal))
variable (h1 : ∀ (i : Fin 8192) (k : Fin 256), V m c main_arg1 (ix2 i k) = ((tr i k : ℝ) : EReal))

include h0 h1 in
/-- After every point the carried running sum is the real running sum, at its one entry. -/
theorem scratch_eq : ∀ (n : ℕ) (hn : n < cfg0.N), (outsAt0 m c n hn).2 = fun _ => ((accR sr tr n : ℝ) : EReal) := by
  intro n
  induction n with
  | zero =>
    intro hn
    rw [outsAt0_A m c ⟨0, hn⟩ rfl (by show ¬(0 : ℕ) % 128 = 127; decide)]
    dsimp only
    rw [sout_A, iblk0, iblk1, accStep_real sr tr ⟨0, hn⟩ _ _ h0 h1 _ 0 pay3_zero, accR_start sr tr 0 rfl]
  | succ n ih =>
    intro hn
    by_cases hA : (n + 1) % 128 = 0
    · have hC : ¬(n + 1) % 128 = 127 := by omega
      rw [outsAt0_A m c ⟨n + 1, hn⟩ hA hC]
      dsimp only
      rw [sout_A, iblk0, iblk1, accStep_real sr tr ⟨n + 1, hn⟩ _ _ h0 h1 _ 0 pay3_zero, accR_start sr tr (n + 1) hA]
    · by_cases hC : (n + 1) % 128 = 127
      · rw [outsAt0_C m c ⟨n + 1, hn⟩ hA hC]
        dsimp only
        rw [sout_C, iblk0, iblk1, accR_succ sr tr n hA]
        exact accStep_real sr tr ⟨n + 1, hn⟩ _ _ h0 h1 _ (accR sr tr n) (ih (Nat.lt_of_succ_lt hn))
      · rw [outsAt0_B m c ⟨n + 1, hn⟩ hA hC]
        dsimp only
        rw [sout_B, iblk0, iblk1, accR_succ sr tr n hA]
        exact accStep_real sr tr ⟨n + 1, hn⟩ _ _ h0 h1 _ (accR sr tr n) (ih (Nat.lt_of_succ_lt hn))

include h0 h1 in
/-- At a core's last point the output block is the running sum too. -/
theorem out_eq (n : ℕ) (hn : n < cfg0.N) (hC : n % 128 = 127) :
    (outsAt0 m c n hn).1 = fun _ => ((accR sr tr n : ℝ) : EReal) := by
  have hA : ¬n % 128 = 0 := by omega
  have e2 := scratch_eq m sr tr c h0 h1 n hn
  rw [outsAt0_C m c ⟨n, hn⟩ hA hC] at e2 ⊢
  dsimp only at e2 ⊢
  rw [sout_C] at e2
  rw [out_C, e2, pay2_const]

/-- A core's total: the 128 tiles of its run. -/
def coreSum (k : ℕ) : ℝ := ∑ q ∈ Finset.range 128, Mmd.tileAt sr tr (k * 128 + q)

theorem accR_last (n : ℕ) (hC : n % 128 = 127) : accR sr tr n = coreSum sr tr (n / 128) := by
  unfold accR coreSum
  have e : n - n % 128 = n / 128 * 128 := by omega
  rw [e, hC]

/-- Where the output window's block sits at each point: block (t / 128, 0, 0), a single entry. -/
theorem idx2 : ∀ t : Fin cfg0.N, win0_2.index t 0 = t.val / 128 ∧ win0_2.index t 1 = 0 ∧ win0_2.index t 2 = 0 :=
  (by decide +kernel : ∀ t : Fin grid0.N, win0_2.index t 0 = t.val / 128 ∧ win0_2.index t 1 = 0 ∧ win0_2.index t 2 = 0)

theorem xs2 : ∀ t : Fin cfg0.N, win0_2.xsize (grid0.coords t) 0 = 1 ∧ win0_2.xsize (grid0.coords t) 1 = 1 ∧ win0_2.xsize (grid0.coords t) 2 = 1 :=
  (by decide +kernel : ∀ t : Fin grid0.N, win0_2.xsize (grid0.coords t) 0 = 1 ∧ win0_2.xsize (grid0.coords t) 1 = 1 ∧ win0_2.xsize (grid0.coords t) 2 = 1)

/-- The output array after the run: entry (k, 0, 0) is core k's total. -/
def outArr : Buf (Elt Ideal) ((c : Thread nD τ).loc main_v0) :=
  fun (i : S2x1x1.Idx) => ((coreSum sr tr (i 0).val : ℝ) : EReal)

include h0 h1 in
/-- What a core's last point writes back is its entry of that array. -/
theorem flushed_eq (t : Fin cfg0.N) (hf : (cfg0.win 2).flush t = true) :
    (dats m 0 c).flushed 2 t = ((cfg0.win 2).blk t).view.read (Elt Ideal) (outArr sr tr c) := by
  have hC : t.val % 128 = 127 := (flush0_2 t).mp hf
  show (cfg0.win 2).cut (grid0.coords t) ((dats m 0 c).after 2 t) = _
  rw [after0_2, out_eq m sr tr c h0 h1 t.val t.isLt hC]
  funext y
  rw [View.read_apply]
  show ((accR sr tr t.val : ℝ) : EReal) = ((coreSum sr tr ((((cfg0.win 2).blk t).view.emb y) 0).val : ℝ) : EReal)
  rw [accR_last sr tr t.val hC]
  congr 2
  show t.val / 128 = win0_2.index t 0 * 1 + 1 * (y 0).val
  have hy : (y 0).val < 1 := lt_of_lt_of_eq (y 0).isLt (xs2 t).1
  rw [(idx2 t).1]
  omega

include h0 h1 in
/-- So the output array ends at the two cores' totals: each entry is covered by its core's last point. -/
theorem final_out : (dats m 0 c).arrAt 2 cfg0.N = outArr sr tr c :=
  (dats m 0 c).arrAt_eq_of_cover 2 (outArr sr tr c) (flushed_eq m sr tr c h0 h1) fun i => by
    have hi0 : ((i : S2x1x1.Idx) 0 : Nat) < 2 := (i 0).isLt
    have hi1 : ((i : S2x1x1.Idx) 1 : Nat) < 1 := (i 1).isLt
    have hi2 : ((i : S2x1x1.Idx) 2 : Nat) < 1 := (i 2).isLt
    have hN : cfg0.N = 256 := N_0
    have ht : ((i : S2x1x1.Idx) 0).val * 128 + 127 < cfg0.N := by omega
    refine ⟨⟨((i : S2x1x1.Idx) 0).val * 128 + 127, ht⟩, (flush0_2 _).mpr (by show (((i : S2x1x1.Idx) 0).val * 128 + 127) % 128 = 127; omega), ?_⟩
    show i ∈ ((View.whole main_v0).slice (win0_2.rect ⟨((i : S2x1x1.Idx) 0).val * 128 + 127, ht⟩)).set
    rw [View.set_slice_whole, Rect.mem_set_unit]
    intro a
    match a with
    | ⟨0, _⟩ =>
      show win0_2.index _ 0 * 1 ≤ ((i : S2x1x1.Idx) 0 : Nat) ∧ ((i : S2x1x1.Idx) 0 : Nat) < win0_2.index _ 0 * 1 + win0_2.xsize (grid0.coords _) 0
      rw [(idx2 _).1, (xs2 _).1]
      show (((i : S2x1x1.Idx) 0).val * 128 + 127) / 128 * 1 ≤ _ ∧ _ < (((i : S2x1x1.Idx) 0).val * 128 + 127) / 128 * 1 + 1
      omega
    | ⟨1, _⟩ =>
      show win0_2.index _ 1 * 1 ≤ ((i : S2x1x1.Idx) 1 : Nat) ∧ ((i : S2x1x1.Idx) 1 : Nat) < win0_2.index _ 1 * 1 + win0_2.xsize (grid0.coords _) 1
      rw [(idx2 _).2.1, (xs2 _).2.1]
      omega
    | ⟨2, _⟩ =>
      show win0_2.index _ 2 * 1 ≤ ((i : S2x1x1.Idx) 2 : Nat) ∧ ((i : S2x1x1.Idx) 2 : Nat) < win0_2.index _ 2 * 1 + win0_2.xsize (grid0.coords _) 2
      rw [(idx2 _).2.2, (xs2 _).2.2]
      omega

/-- The host lines after the region: the output array summed from 0, then scaled by 2⁻²⁶. -/
theorem tail_eq : Pipeline.afterTail₀ cfgs (dats m) 0 (V0 m) [hostOps1] c main_v2
    = (mulf (F := Ideal) (Host.reduceAdd (F := Ideal) ((dats m 0 c).arrAt 2 cfg0.N : (⟨S2x1x1, .f32⟩ : BufTy).Contents (Elt Ideal)) (constant (F := Ideal) S_ .f32 0x00000000#32) reducesTo_S2x1x1_S_d0_1_2 h_S_)
        (constant (F := Ideal) S_ .f32 0x32800000#32) : (⟨S_, .f32⟩ : BufTy).Contents (Elt Ideal)) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.tc.devRef main_v0)
      = (dats m 0 c).arrAt 2 cfg0.N from Pipeline.withArrays_arr spec0 launch0.win.arr_inj c _ _ 2]

/-- The output array's index is its first coordinate. -/
def outIdxEquiv : S2x1x1.Idx ≃ Fin 2 where
  toFun i := i 0
  invFun k := ix3 k (0 : Fin 1) (0 : Fin 1)
  left_inv i := by
    funext a
    match a with
    | ⟨0, _⟩ => rfl
    | ⟨1, _⟩ => exact Subsingleton.elim (α := Fin 1) _ _
    | ⟨2, _⟩ => exact Subsingleton.elim (α := Fin 1) _ _
  right_inv k := rfl

theorem sum_out (f : ℕ → EReal) : ∑ i : S2x1x1.Idx, f (i 0).val = f 0 + f 1 := by
  rw [Fintype.sum_equiv outIdxEquiv (fun i => f (i 0).val) (fun k => f k.val) (fun i => rfl), Fin.sum_univ_two]
  rfl

theorem cores_mean : (0 + (coreSum sr tr 0 + coreSum sr tr 1)) * (1 / 67108864) = Mmd.mmd sr tr := by
  rw [← Mmd.mmd_points sr tr]
  unfold coreSum
  simp only [Nat.zero_mul, Nat.zero_add, Nat.one_mul, zero_add]

include h0 h1 in
/-- The kernel's result on real inputs: the mean discrepancy. -/
theorem value_eq : Pipeline.afterTail₀ cfgs (dats m) 0 (V0 m) [hostOps1] c main_v2 = fun _ => ((Mmd.mmd sr tr : ℝ) : EReal) := by
  rw [tail_eq, final_out m sr tr c h0 h1]
  funext j
  show (Ideal.hostReduceAdd reducesTo_S2x1x1_S_d0_1_2 (outArr sr tr c) (Ideal.ofBits .f32 0x00000000#32) j) * Ideal.ofBits .f32 0x32800000#32 = _
  rw [Ideal.hostReduceAdd_total reducesTo_S2x1x1_S_d0_1_2 (fun b => b.elim0) _ _ j, Cert.Consts.ofBits_zero, Cert.Consts.ofBits_inv_pow26]
  show (0 + ∑ i : S2x1x1.Idx, ((coreSum sr tr (i 0).val : ℝ) : EReal)) * _ = _
  rw [sum_out (fun n => ((coreSum sr tr n : ℝ) : EReal)), ← EReal.coe_add, ← EReal.coe_zero, ← EReal.coe_add, ← EReal.coe_mul,
    cores_mean]

end Cert.KernelIdeal.Acc

namespace Cert.KernelIdeal.Value

open Idealize.ShloMosaic Idealize.ShloMosaic.TcCoe Idealize.SL.Sem Idealize.ShloMosaic.ValueIdx
open Cert.KernelIdeal Cert.KernelIdeal.Gen

/-- The run of the idealized kernel from a memory whose two argument arrays hold reals: every weakly fair execution ends, without
    a fault, with the result at the mean discrepancy of those reals and the arguments unchanged. -/
theorem run (m : (ℓ : Loc nD τ sig) → Buf (Elt Ideal) ℓ) (ρ : Dev nD → PrngReg)
    (sr tr : Dev nD → Fin 8192 → Fin 256 → ℝ)
    (h0 : ∀ (c : Dev nD) (i : Fin 8192) (k : Fin 256), m ((c.tc : Thread nD τ).loc main_arg0) (ix2 i k) = ((sr c i k : ℝ) : EReal))
    (h1 : ∀ (c : Dev nD) (i : Fin 8192) (k : Fin 256), m ((c.tc : Thread nD τ).loc main_arg1) (ix2 i k) = ((tr c i k : ℝ) : EReal)) :
    θ_run defs (onTc (τ := τ) (main (F := Ideal))) ⟨m, fun _ => 0, ρ⟩ (fun r => ∀ c : Dev nD,
      r.2.mem ((c.tc : Thread nD τ).loc main_v2) = (fun _ => ((Mmd.mmd (sr c) (tr c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v2 (by decide)).trans (Cert.KernelIdeal.Acc.value_eq m (sr c) (tr c) c (h0 c) (h1 c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Value

end
-- ==== Proof.RefValue.lean ====
/-
  The reference program's value on real inputs.  For two families of 8192 rows of 256 reals the reference forms, for each
  of the three pairings (first with first, second with second, first with second), the squared row norms, the matrix of
  inner products, the expanded squared distance  ‖a_i‖² + ‖b_j‖² - 2 a_i·b_j,  and the Gaussian entry  exp(-d / 2);  it then
  sums  k(s_i, s_j) + k(t_i, t_j) - 2 k(s_i, t_j)  over all pairs from 0 and divides by 2²⁶, the number of pairs.  Read at
  the extended reals every stage is the coercion of the same real expression, so the result is the coercion of the mean
  discrepancy.  The stages are read one at a time at an index given by its coordinates; the coercion is pushed outward by
  small facts about abstract real families.
-/
import proofs.«102746_j77438260347128_2_alg».proof.Proof.Gen.ReferenceIdeal.Read
import proofs.«102746_j77438260347128_2_alg».proof.Proof.MmdReal
import proofs.«102746_j77438260347128_2_alg».proof.Proof.Consts
import Idealize.ShloMosaic.Lib.ValueIdx
import Idealize.ShloMosaic.PureOps.Ideal.Laws

noncomputable section

namespace Cert.ReferenceIdeal.RefValue

open Idealize.ShloMosaic Cert.ReferenceIdeal

/-! ## The three float literals of the reference, as extended reals -/

/-- The word of `+0.0` denotes `0`. -/
theorem lit_zero : Ideal.ofBits .f32 0x00000000#32 = 0 := Cert.Consts.ofBits_zero

/-- The word of `2.0` denotes the real `2`. -/
theorem lit_two : Ideal.ofBits .f32 0x40000000#32 = ((2 : ℝ) : EReal) := Cert.Consts.ofBits_two

/-- The word `0x4C800000` denotes the real `2 ^ 26 = 67108864`, the number of index pairs. -/
theorem lit_pairs : Ideal.ofBits .f32 0x4C800000#32 = ((67108864 : ℝ) : EReal) := Cert.Consts.ofBits_pow26

/-! ## Coercion facts over abstract real families -/

/-- A finite sum of coerced reals is the coercion of the real sum. -/
theorem coe_sum {ι : Type*} (s : Finset ι) (f : ι → ℝ) :
    (∑ k ∈ s, ((f k : ℝ) : EReal)) = ((∑ k ∈ s, f k : ℝ) : EReal) := by
  classical
  refine Finset.induction_on s (by simp) fun a t ha ih => ?_
  rw [Finset.sum_insert ha, Finset.sum_insert ha, ih, EReal.coe_add]

/-- Squared norm: zero plus the sum of the squares of coerced reals. -/
theorem sq_coe (f : Fin 256 → ℝ) :
    (0 : EReal) + ∑ k : Fin 256, ((f k : ℝ) : EReal) * ((f k : ℝ) : EReal) = ((∑ k : Fin 256, f k * f k : ℝ) : EReal) := by
  simp only [← EReal.coe_mul]
  rw [coe_sum, zero_add]

/-- Inner product of coerced reals. -/
theorem dot_coe (f g : Fin 256 → ℝ) :
    ∑ k : Fin 256, ((f k : ℝ) : EReal) * ((g k : ℝ) : EReal) = ((∑ k : Fin 256, f k * g k : ℝ) : EReal) := by
  simp only [← EReal.coe_mul]
  rw [coe_sum]

/-- The Gaussian entry from coerced squared norms and inner product. -/
theorem gauss_coe (p q d : ℝ) :
    Ideal.exp (Ideal.div (-(((p : EReal) + (q : EReal)) - ((2 : ℝ) : EReal) * (d : EReal))) ((2 : ℝ) : EReal))
      = ((Real.exp (-((p + q) - 2 * d) / 2) : ℝ) : EReal) := by
  rw [Ideal.div_coe (two_ne_zero), ← EReal.coe_add, ← EReal.coe_mul, ← EReal.coe_sub, ← EReal.coe_neg, ← EReal.coe_mul,
    Ideal.exp_coe]
  congr 2; ring

/-- One summand of the discrepancy from coerced kernel entries. -/
theorem term_coe (a b c : ℝ) :
    (((a : EReal) + (b : EReal)) - ((2 : ℝ) : EReal) * (c : EReal)) = (((a + b) - 2 * c : ℝ) : EReal) := by
  rw [← EReal.coe_add, ← EReal.coe_mul, ← EReal.coe_sub]

/-- The mean: zero plus the sum, divided by the number of pairs. -/
theorem mean_coe (s : ℝ) :
    Ideal.div ((0 : EReal) + (s : EReal)) ((67108864 : ℝ) : EReal) = ((s / 67108864 : ℝ) : EReal) := by
  rw [zero_add, Ideal.div_coe (by norm_num), ← EReal.coe_mul]
  congr 1; ring

/-! ## Squared row norms -/

/-- The squared norm of row `i` of the first family, as the reference's row sum %1 computes it. -/
theorem v1_eq (x0 : (⟨S8192x256, .f32⟩ : BufTy).Contents (Elt Ideal)) (sr : Fin 8192 → Fin 256 → ℝ)
    (h0 : ∀ (i : Fin 8192) (k : Fin 256), x0 (ValueIdx.ix2 i k) = ((sr i k : ℝ) : EReal)) (i : Fin 8192) :
    Read.val_main_v1 (F := Ideal) x0 (ValueIdx.ix1 i) = ((Mmd.sq sr i : ℝ) : EReal) := by
  have e : ∀ k : Fin 256, Read.idx_main_v1 (ValueIdx.ix1 i) k = ValueIdx.ix2 i k := fun k =>
    funext fun a => Fin.ext (by match a with | ⟨0, _⟩ => rfl | ⟨1, _⟩ => rfl)
  rw [Read.val_main_v1_apply, Read.val_main_cst_apply]
  simp only [Read.val_main_v0_apply, e, h0, Ideal.ofBits_def, Ideal.mulf_def, lit_zero]
  exact sq_coe (sr i)

/-- The squared norm of row `i` of the first family, as the reference's row sum %3 computes it. -/
theorem v3_eq (x0 : (⟨S8192x256, .f32⟩ : BufTy).Contents (Elt Ideal)) (sr : Fin 8192 → Fin 256 → ℝ)
    (h0 : ∀ (i : Fin 8192) (k : Fin 256), x0 (ValueIdx.ix2 i k) = ((sr i k : ℝ) : EReal)) (i : Fin 8192) :
    Read.val_main_v3 (F := Ideal) x0 (ValueIdx.ix1 i) = ((Mmd.sq sr i : ℝ) : EReal) := by
  have e : ∀ k : Fin 256, Read.idx_main_v3 (ValueIdx.ix1 i) k = ValueIdx.ix2 i k := fun k =>
    funext fun a => Fin.ext (by match a with | ⟨0, _⟩ => rfl | ⟨1, _⟩ => rfl)
  rw [Read.val_main_v3_apply, Read.val_main_cst_0_apply]
  simp only [Read.val_main_v2_apply, e, h0, Ideal.ofBits_def, Ideal.mulf_def, lit_zero]
  exact sq_coe (sr i)

/-- The squared norm of row `i` of the second family, as the reference's row sum %19 computes it. -/
theorem v19_eq (x1 : (⟨S8192x256, .f32⟩ : BufTy).Contents (Elt Ideal)) (tr : Fin 8192 → Fin 256 → ℝ)
    (h1 : ∀ (i : Fin 8192) (k : Fin 256), x1 (ValueIdx.ix2 i k) = ((tr i k : ℝ) : EReal)) (i : Fin 8192) :
    Read.val_main_v19 (F := Ideal) x1 (ValueIdx.ix1 i) = ((Mmd.sq tr i : ℝ) : EReal) := by
  have e : ∀ k : Fin 256, Read.idx_main_v19 (ValueIdx.ix1 i) k = ValueIdx.ix2 i k := fun k =>
    funext fun a => Fin.ext (by match a with | ⟨0, _⟩ => rfl | ⟨1, _⟩ => rfl)
  rw [Read.val_main_v19_apply, Read.val_main_cst_3_apply]
  simp only [Read.val_main_v18_apply, e, h1, Ideal.ofBits_def, Ideal.mulf_def, lit_zero]
  exact sq_coe (tr i)

/-- The squared norm of row `i` of the second family, as the reference's row sum %21 computes it. -/
theorem v21_eq (x1 : (⟨S8192x256, .f32⟩ : BufTy).Contents (Elt Ideal)) (tr : Fin 8192 → Fin 256 → ℝ)
    (h1 : ∀ (i : Fin 8192) (k : Fin 256), x1 (ValueIdx.ix2 i k) = ((tr i k : ℝ) : EReal)) (i : Fin 8192) :
    Read.val_main_v21 (F := Ideal) x1 (ValueIdx.ix1 i) = ((Mmd.sq tr i : ℝ) : EReal) := by
  have e : ∀ k : Fin 256, Read.idx_main_v21 (ValueIdx.ix1 i) k = ValueIdx.ix2 i k := fun k =>
    funext fun a => Fin.ext (by match a with | ⟨0, _⟩ => rfl | ⟨1, _⟩ => rfl)
  rw [Read.val_main_v21_apply, Read.val_main_cst_4_apply]
  simp only [Read.val_main_v20_apply, e, h1, Ideal.ofBits_def, Ideal.mulf_def, lit_zero]
  exact sq_coe (tr i)

/-- The squared norm of row `i` of the first family, as the reference's row sum %37 computes it. -/
theorem v37_eq (x0 : (⟨S8192x256, .f32⟩ : BufTy).Contents (Elt Ideal)) (sr : Fin 8192 → Fin 256 → ℝ)
    (h0 : ∀ (i : Fin 8192) (k : Fin 256), x0 (ValueIdx.ix2 i k) = ((sr i k : ℝ) : EReal)) (i : Fin 8192) :
    Read.val_main_v37 (F := Ideal) x0 (ValueIdx.ix1 i) = ((Mmd.sq sr i : ℝ) : EReal) := by
  have e : ∀ k : Fin 256, Read.idx_main_v37 (ValueIdx.ix1 i) k = ValueIdx.ix2 i k := fun k =>
    funext fun a => Fin.ext (by match a with | ⟨0, _⟩ => rfl | ⟨1, _⟩ => rfl)
  rw [Read.val_main_v37_apply, Read.val_main_cst_7_apply]
  simp only [Read.val_main_v36_apply, e, h0, Ideal.ofBits_def, Ideal.mulf_def, lit_zero]
  exact sq_coe (sr i)

/-- The squared norm of row `i` of the second family, as the reference's row sum %39 computes it. -/
theorem v39_eq (x1 : (⟨S8192x256, .f32⟩ : BufTy).Contents (Elt Ideal)) (tr : Fin 8192 → Fin 256 → ℝ)
    (h1 : ∀ (i : Fin 8192) (k : Fin 256), x1 (ValueIdx.ix2 i k) = ((tr i k : ℝ) : EReal)) (i : Fin 8192) :
    Read.val_main_v39 (F := Ideal) x1 (ValueIdx.ix1 i) = ((Mmd.sq tr i : ℝ) : EReal) := by
  have e : ∀ k : Fin 256, Read.idx_main_v39 (ValueIdx.ix1 i) k = ValueIdx.ix2 i k := fun k =>
    funext fun a => Fin.ext (by match a with | ⟨0, _⟩ => rfl | ⟨1, _⟩ => rfl)
  rw [Read.val_main_v39_apply, Read.val_main_cst_8_apply]
  simp only [Read.val_main_v38_apply, e, h1, Ideal.ofBits_def, Ideal.mulf_def, lit_zero]
  exact sq_coe (tr i)

/-! ## Inner products -/

/-- Entry `(i, j)` of the product of the first family with its own transpose (%5) is the inner product of rows `i` and `j`. -/
theorem v5_eq (x0 : (⟨S8192x256, .f32⟩ : BufTy).Contents (Elt Ideal)) (sr : Fin 8192 → Fin 256 → ℝ)
    (h0 : ∀ (i : Fin 8192) (k : Fin 256), x0 (ValueIdx.ix2 i k) = ((sr i k : ℝ) : EReal)) (i j : Fin 8192) :
    Read.val_main_v5 (F := Ideal) x0 (ValueIdx.ix2 i j) = ((Mmd.dot sr sr i j : ℝ) : EReal) := by
  have el : ∀ k : Fin 256, Read.lidx_main_v5 (ValueIdx.ix2 i j) k = ValueIdx.ix2 i k := fun k =>
    funext fun a => Fin.ext (by match a with | ⟨0, _⟩ => rfl | ⟨1, _⟩ => rfl)
  have er : ∀ k : Fin 256, Read.idx_main_v4 (Read.ridx_main_v5 (ValueIdx.ix2 i j) k) = ValueIdx.ix2 j k := fun k =>
    funext fun a => Fin.ext (by match a with | ⟨0, _⟩ => rfl | ⟨1, _⟩ => rfl)
  rw [Read.val_main_v5_apply]
  simp only [Read.val_main_v4_apply, el, er, h0]
  exact dot_coe (sr i) (sr j)

/-- Entry `(i, j)` of the product of the second family with its own transpose (%23) is the inner product of rows `i` and `j`. -/
theorem v23_eq (x1 : (⟨S8192x256, .f32⟩ : BufTy).Contents (Elt Ideal)) (tr : Fin 8192 → Fin 256 → ℝ)
    (h1 : ∀ (i : Fin 8192) (k : Fin 256), x1 (ValueIdx.ix2 i k) = ((tr i k : ℝ) : EReal)) (i j : Fin 8192) :
    Read.val_main_v23 (F := Ideal) x1 (ValueIdx.ix2 i j) = ((Mmd.dot tr tr i j : ℝ) : EReal) := by
  have el : ∀ k : Fin 256, Read.lidx_main_v23 (ValueIdx.ix2 i j) k = ValueIdx.ix2 i k := fun k =>
    funext fun a => Fin.ext (by match a with | ⟨0, _⟩ => rfl | ⟨1, _⟩ => rfl)
  have er : ∀ k : Fin 256, Read.idx_main_v22 (Read.ridx_main_v23 (ValueIdx.ix2 i j) k) = ValueIdx.ix2 j k := fun k =>
    funext fun a => Fin.ext (by match a with | ⟨0, _⟩ => rfl | ⟨1, _⟩ => rfl)
  rw [Read.val_main_v23_apply]
  simp only [Read.val_main_v22_apply, el, er, h1]
  exact dot_coe (tr i) (tr j)

/-- Entry `(i, j)` of the product of the first family with the transpose of the second (%41) is the inner product of row `i`
    of the first with row `j` of the second. -/
theorem v41_eq (x0 x1 : (⟨S8192x256, .f32⟩ : BufTy).Contents (Elt Ideal)) (sr tr : Fin 8192 → Fin 256 → ℝ)
    (h0 : ∀ (i : Fin 8192) (k : Fin 256), x0 (ValueIdx.ix2 i k) = ((sr i k : ℝ) : EReal))
    (h1 : ∀ (i : Fin 8192) (k : Fin 256), x1 (ValueIdx.ix2 i k) = ((tr i k : ℝ) : EReal)) (i j : Fin 8192) :
    Read.val_main_v41 (F := Ideal) x0 x1 (ValueIdx.ix2 i j) = ((Mmd.dot sr tr i j : ℝ) : EReal) := by
  have el : ∀ k : Fin 256, Read.lidx_main_v41 (ValueIdx.ix2 i j) k = ValueIdx.ix2 i k := fun k =>
    funext fun a => Fin.ext (by match a with | ⟨0, _⟩ => rfl | ⟨1, _⟩ => rfl)
  have er : ∀ k : Fin 256, Read.idx_main_v40 (Read.ridx_main_v41 (ValueIdx.ix2 i j) k) = ValueIdx.ix2 j k := fun k =>
    funext fun a => Fin.ext (by match a with | ⟨0, _⟩ => rfl | ⟨1, _⟩ => rfl)
  rw [Read.val_main_v41_apply]
  simp only [Read.val_main_v40_apply, el, er, h0, h1]
  exact dot_coe (sr i) (tr j)

/-! ## Gaussian kernel entries -/

/-- The Gaussian kernel entry (%17) of rows `i` and `j` of the first family. -/
theorem v17_eq (x0 : (⟨S8192x256, .f32⟩ : BufTy).Contents (Elt Ideal)) (sr : Fin 8192 → Fin 256 → ℝ)
    (h0 : ∀ (i : Fin 8192) (k : Fin 256), x0 (ValueIdx.ix2 i k) = ((sr i k : ℝ) : EReal)) (i j : Fin 8192) :
    Read.val_main_v17 (F := Ideal) x0 (ValueIdx.ix2 i j) = ((Mmd.gauss sr sr i j : ℝ) : EReal) := by
  have ea : Read.idx_main_v6 (Read.idx_main_v8 (ValueIdx.ix2 i j)) = ValueIdx.ix1 i :=
    funext fun a => Fin.ext (by match a with | ⟨0, _⟩ => rfl)
  have eb : Read.idx_main_v7 (Read.idx_main_v9 (ValueIdx.ix2 i j)) = ValueIdx.ix1 j :=
    funext fun a => Fin.ext (by match a with | ⟨0, _⟩ => rfl)
  simp only [Read.val_main_v17_apply, Read.val_main_v16_apply, Read.val_main_v14_apply, Read.val_main_v13_apply, Read.val_main_v10_apply,
    Read.val_main_v8_apply, Read.val_main_v6_apply, Read.val_main_v9_apply, Read.val_main_v7_apply, Read.val_main_v12_apply,
    Read.val_main_v11_apply, Read.val_main_cst_1_apply, Read.val_main_v15_apply, Read.val_main_cst_2_apply, ea, eb,
    v1_eq x0 sr h0, v3_eq x0 sr h0, v5_eq x0 sr h0,
    Ideal.ofBits_def, Ideal.addf_def, Ideal.subf_def, Ideal.mulf_def, Ideal.hostDivf_def, Ideal.hostNegf_def, Ideal.negf_def,
    Ideal.hostUnary_exp_def, lit_two]
  exact gauss_coe _ _ _

/-- The Gaussian kernel entry (%35) of rows `i` and `j` of the second family. -/
theorem v35_eq (x1 : (⟨S8192x256, .f32⟩ : BufTy).Contents (Elt Ideal)) (tr : Fin 8192 → Fin 256 → ℝ)
    (h1 : ∀ (i : Fin 8192) (k : Fin 256), x1 (ValueIdx.ix2 i k) = ((tr i k : ℝ) : EReal)) (i j : Fin 8192) :
    Read.val_main_v35 (F := Ideal) x1 (ValueIdx.ix2 i j) = ((Mmd.gauss tr tr i j : ℝ) : EReal) := by
  have ea : Read.idx_main_v24 (Read.idx_main_v26 (ValueIdx.ix2 i j)) = ValueIdx.ix1 i :=
    funext fun a => Fin.ext (by match a with | ⟨0, _⟩ => rfl)
  have eb : Read.idx_main_v25 (Read.idx_main_v27 (ValueIdx.ix2 i j)) = ValueIdx.ix1 j :=
    funext fun a => Fin.ext (by match a with | ⟨0, _⟩ => rfl)
  simp only [Read.val_main_v35_apply, Read.val_main_v34_apply, Read.val_main_v32_apply, Read.val_main_v31_apply, Read.val_main_v28_apply,
    Read.val_main_v26_apply, Read.val_main_v24_apply, Read.val_main_v27_apply, Read.val_main_v25_apply, Read.val_main_v30_apply,
    Read.val_main_v29_apply, Read.val_main_cst_5_apply, Read.val_main_v33_apply, Read.val_main_cst_6_apply, ea, eb,
    v19_eq x1 tr h1, v21_eq x1 tr h1, v23_eq x1 tr h1,
    Ideal.ofBits_def, Ideal.addf_def, Ideal.subf_def, Ideal.mulf_def, Ideal.hostDivf_def, Ideal.hostNegf_def, Ideal.negf_def,
    Ideal.hostUnary_exp_def, lit_two]
  exact gauss_coe _ _ _

/-- The Gaussian kernel entry (%53) of row `i` of the first family and row `j` of the second. -/
theorem v53_eq (x0 x1 : (⟨S8192x256, .f32⟩ : BufTy).Contents (Elt Ideal)) (sr tr : Fin 8192 → Fin 256 → ℝ)
    (h0 : ∀ (i : Fin 8192) (k : Fin 256), x0 (ValueIdx.ix2 i k) = ((sr i k : ℝ) : EReal))
    (h1 : ∀ (i : Fin 8192) (k : Fin 256), x1 (ValueIdx.ix2 i k) = ((tr i k : ℝ) : EReal)) (i j : Fin 8192) :
    Read.val_main_v53 (F := Ideal) x0 x1 (ValueIdx.ix2 i j) = ((Mmd.gauss sr tr i j : ℝ) : EReal) := by
  have ea : Read.idx_main_v42 (Read.idx_main_v44 (ValueIdx.ix2 i j)) = ValueIdx.ix1 i :=
    funext fun a => Fin.ext (by match a with | ⟨0, _⟩ => rfl)
  have eb : Read.idx_main_v43 (Read.idx_main_v45 (ValueIdx.ix2 i j)) = ValueIdx.ix1 j :=
    funext fun a => Fin.ext (by match a with | ⟨0, _⟩ => rfl)
  simp only [Read.val_main_v53_apply, Read.val_main_v52_apply, Read.val_main_v50_apply, Read.val_main_v49_apply, Read.val_main_v46_apply,
    Read.val_main_v44_apply, Read.val_main_v42_apply, Read.val_main_v45_apply, Read.val_main_v43_apply, Read.val_main_v48_apply,
    Read.val_main_v47_apply, Read.val_main_cst_9_apply, Read.val_main_v51_apply, Read.val_main_cst_10_apply, ea, eb,
    v37_eq x0 sr h0, v39_eq x1 tr h1, v41_eq x0 x1 sr tr h0 h1,
    Ideal.ofBits_def, Ideal.addf_def, Ideal.subf_def, Ideal.mulf_def, Ideal.hostDivf_def, Ideal.hostNegf_def, Ideal.negf_def,
    Ideal.hostUnary_exp_def, lit_two]
  exact gauss_coe _ _ _

/-! ## The summand and the mean -/

/-- The summand (%57) at the pair `(i, j)`. -/
theorem v57_eq (x0 x1 : (⟨S8192x256, .f32⟩ : BufTy).Contents (Elt Ideal)) (sr tr : Fin 8192 → Fin 256 → ℝ)
    (h0 : ∀ (i : Fin 8192) (k : Fin 256), x0 (ValueIdx.ix2 i k) = ((sr i k : ℝ) : EReal))
    (h1 : ∀ (i : Fin 8192) (k : Fin 256), x1 (ValueIdx.ix2 i k) = ((tr i k : ℝ) : EReal)) (i j : Fin 8192) :
    Read.val_main_v57 (F := Ideal) x0 x1 (ValueIdx.ix2 i j) = ((Mmd.term sr tr i j : ℝ) : EReal) := by
  simp only [Read.val_main_v57_apply, Read.val_main_v54_apply, Read.val_main_v56_apply, Read.val_main_v55_apply,
    Read.val_main_cst_11_apply, v17_eq x0 sr h0, v35_eq x1 tr h1, v53_eq x0 x1 sr tr h0 h1,
    Ideal.ofBits_def, Ideal.addf_def, Ideal.subf_def, Ideal.mulf_def, lit_two]
  exact term_coe _ _ _

/-- On real inputs the reference's result is the mean discrepancy of the two row families. -/
theorem val_real (x0 x1 : (⟨S8192x256, .f32⟩ : BufTy).Contents (Elt Ideal)) (sr tr : Fin 8192 → Fin 256 → ℝ)
    (h0 : ∀ (i : Fin 8192) (k : Fin 256), x0 (ValueIdx.ix2 i k) = ((sr i k : ℝ) : EReal))
    (h1 : ∀ (i : Fin 8192) (k : Fin 256), x1 (ValueIdx.ix2 i k) = ((tr i k : ℝ) : EReal)) :
    Cert.ReferenceIdeal.Read.val_main_v59 (F := Ideal) x0 x1 = fun _ => ((Mmd.mmd sr tr : ℝ) : EReal) := by
  funext i
  rw [Read.val_main_v59_apply, Read.val_main_v58_apply, Read.val_main_cst_12_apply, Read.val_main_cst_13_apply,
    ValueIdx.sum_idx2]
  simp only [v57_eq x0 x1 sr tr h0 h1, Ideal.ofBits_def, Ideal.hostDivf_def, lit_zero, lit_pairs, coe_sum]
  exact mean_coe _

end Cert.ReferenceIdeal.RefValue

end
-- ==== Proof.FiniteInputs.lean ====
/-
  The finiteness predicate, read back. The predicate compares the absolute value of every entry of each of the two
  arrays with +∞ (the f32 word 0x7F800000), takes the conjunction of all the comparisons of one array (a reduction by
  `and` over both axes, from the constant true) and joins the two answers by `and`. Where it answers true, every entry x
  of either array has max x (-x) < ⊤ in the extended reals, which excludes x = ⊤ and x = ⊥: x is a real number.
-/
import proofs.«102746_j77438260347128_2_alg».proof.Pre_finite_inputs
import proofs.«102746_j77438260347128_2_alg».proof.Proof.Gen.Pre_finite_inputs
import Idealize.ShloMosaic.PureOps.Ideal
import Idealize.ShloMosaic.Lib.ReduceAll
import proofs.«102746_j77438260347128_2_alg».proof.Proof.Consts

namespace Cert.FiniteInputs
open Idealize.ShloMosaic

/-- The scalar shape has exactly one index: an index is a function out of the empty type of its axes. -/
instance : Subsingleton Cert.Pre_finite_inputs.S_.Idx := ⟨fun a b => funext fun d => d.elim0⟩

/-- The f32 word 0x7F800000 (sign 0, exponent all ones, fraction 0) denotes +∞. -/
theorem inf_word : Ideal.ofBits .f32 0x7F800000#32 = (⊤ : EReal) := Cert.Consts.ofBits_inf

/-- A one-bit word made from a Boolean is 1 exactly when the Boolean is true. -/
theorem ofBool_eq_one (b : Bool) : BitVec.ofBool b = 1#1 ↔ b = true := by cases b <;> decide

/-- An extended real whose absolute value max x (-x) is below ⊤ is a real: at x = ⊤ the maximum is ⊤, and at
    x = ⊥ it is -⊥ = ⊤. -/
theorem real_of_abs_lt_top (x : EReal) (h : max x (-x) < ⊤) : ∃ r : ℝ, x = ((r : ℝ) : EReal) := by
  induction x using EReal.rec with
  | bot => simp at h
  | coe r => exact ⟨r, rfl⟩
  | top => simp at h

/-- One array: where the conjunction over all indices of |x i| < +∞ is true, every entry of x is a real. The
    conjunction being 1 gives each comparison being 1; a comparison is the word of the Boolean
    max (x i) (-(x i)) < ⊤, the broadcast constant reading +∞ at every index. -/
theorem real_of_all {axes : List (Fin Cert.Pre_finite_inputs.S8192x256.rank)}
    (x : FVec Ideal Cert.Pre_finite_inputs.S8192x256 .f32)
    (hb : Cert.Pre_finite_inputs.S_.BroadcastsInDim Cert.Pre_finite_inputs.S8192x256
      (![] : Fin 0 → Fin Cert.Pre_finite_inputs.S8192x256.rank))
    (hr : Cert.Pre_finite_inputs.S8192x256.ReducesTo axes Cert.Pre_finite_inputs.S_)
    (hu : 0 < Cert.Pre_finite_inputs.S_.numel) (init : IVec Cert.Pre_finite_inputs.S_ 1)
    (j : Cert.Pre_finite_inputs.S_.Idx)
    (e : Host.reduce IntOp.andi
        (cmpf .olt (Host.absf x)
          (broadcastInDim Cert.Pre_finite_inputs.S8192x256 ![] hb
            (constant Cert.Pre_finite_inputs.S_ .f32 0x7F800000#32))) init hr hu j = 1#1)
    (i : Cert.Pre_finite_inputs.S8192x256.Idx) : ∃ r : ℝ, x i = ((r : ℝ) : EReal) := by
  have hi := Host.reduce_andi_all _ init hr hu j e i
  have hi' : BitVec.ofBool (decide (max (x i) (-(x i)) < Ideal.ofBits .f32 0x7F800000#32)) = 1#1 := hi
  rw [inf_word, ofBool_eq_one] at hi'
  exact real_of_abs_lt_top (x i) (of_decide_eq_true hi')

/-- Where the finiteness predicate answers true, every entry of both arrays is a real number. -/
theorem real_of_pre (x0 x1 : FVec Ideal Cert.Pre_finite_inputs.S8192x256 .f32)
    (h : Cert.Pre_finite_inputs.fn (F := Ideal) x0 x1 = fun _ => 1#1) :
    (∀ i : Cert.Pre_finite_inputs.S8192x256.Idx, ∃ r : ℝ, x0 i = ((r : ℝ) : EReal))
    ∧ (∀ i : Cert.Pre_finite_inputs.S8192x256.Idx, ∃ r : ℝ, x1 i = ((r : ℝ) : EReal)) := by
  have h0 := congrFun h (fun a => a.elim0)
  dsimp only [Cert.Pre_finite_inputs.fn] at h0
  obtain ⟨ha, hb⟩ := IntOp.andi_eq_one.1 h0
  exact ⟨fun i => real_of_all x0 _ _ _ _ _ ha i, fun i => real_of_all x1 _ _ _ _ _ hb i⟩

end Cert.FiniteInputs
-- ==== Proof.lean ====
/-
  The certificate's claims.

  Both programs compute the mean, over all 8192 × 8192 pairs (i, j), of  k(s_i, s_j) + k(t_i, t_j) − 2·k(s_i, t_j)  for the
  Gaussian kernel  k(x, y) = exp(−‖x − y‖² / 2)  with ‖x − y‖² expanded as ‖x‖² + ‖y‖² − 2 x·y.  The reference does it on the
  whole matrices.  The kernel visits the 16 × 16 tiles of 512 × 512 pairs, 128 tiles per core, writes 1 for the diagonal entries
  of k(s, s) and k(t, t) instead of computing them, keeps a running sum per core, and the host adds the two cores' sums and scales
  by 2⁻²⁶.  Under the precondition every input entry is a real number, so every intermediate value is a real; the diagonal
  entries are exp 0 = 1 because the expanded squared distance of a row to itself is exactly 0; the tiles partition the pairs; and
  multiplying by ½ or by 2⁻²⁶ is dividing by 2 or by 2²⁶.  Hence both results are the same real.  Finiteness is used: at an
  infinite entry the diagonal's ∞ − ∞ is not 0 and sums do not distribute.
-/
import proofs.«102746_j77438260347128_2_alg».proof.Defs
import proofs.«102746_j77438260347128_2_alg».proof.Proof.Gen.Kernel
import proofs.«102746_j77438260347128_2_alg».proof.Proof.Gen.Kernel.Skeleton
import proofs.«102746_j77438260347128_2_alg».proof.Proof.Gen.Kernel.Launch
import proofs.«102746_j77438260347128_2_alg».proof.Proof.Gen.Kernel.Points
import proofs.«102746_j77438260347128_2_alg».proof.Proof.Gen.Kernel.Frame
import proofs.«102746_j77438260347128_2_alg».proof.Proof.Gen.KernelIdeal
import proofs.«102746_j77438260347128_2_alg».proof.Proof.Gen.KernelIdeal.Skeleton
import proofs.«102746_j77438260347128_2_alg».proof.Proof.Gen.KernelIdeal.Launch
import proofs.«102746_j77438260347128_2_alg».proof.Proof.Gen.KernelIdeal.Points
import proofs.«102746_j77438260347128_2_alg».proof.Proof.Gen.KernelIdeal.Frame
import proofs.«102746_j77438260347128_2_alg».proof.Proof.Gen.ReferenceIdeal
import proofs.«102746_j77438260347128_2_alg».proof.Proof.Gen.Pre_finite_inputs
import proofs.«102746_j77438260347128_2_alg».proof.Proof.Gen.ReferenceIdeal.Run
import proofs.«102746_j77438260347128_2_alg».proof.Proof.Gen.ReferenceIdeal.Read
import proofs.«102746_j77438260347128_2_alg».proof.Proof.KernelValue
import proofs.«102746_j77438260347128_2_alg».proof.Proof.RefValue
import proofs.«102746_j77438260347128_2_alg».proof.Proof.FiniteInputs
import Idealize.ShloMosaic.Adequacy
import Idealize.ShloMosaic.Init

noncomputable section

namespace Cert.Proof

open Idealize.ShloMosaic Idealize.SL.Sem Idealize.ShloMosaic.ValueIdx

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs the two idealized programs end at the same extended real: the mean discrepancy of the inputs' reals. -/
theorem algebraic : Cert.algebraic_KernelIdeal_ReferenceIdeal := by
  intro m ρ m' ρ' hpre hagree
  have hr := fun c => Cert.FiniteInputs.real_of_pre _ _ (hpre c)
  choose s0 hs0 using fun c => (hr c).1
  choose t0 ht0 using fun c => (hr c).2
  refine ⟨fun c => fun _ => ((Mmd.mmd (fun i k => s0 c (ix2 i k)) (fun i k => t0 c (ix2 i k)) : ℝ) : EReal),
    Cert.KernelIdeal.Value.run m ρ (fun c i k => s0 c (ix2 i k)) (fun c i k => t0 c (ix2 i k))
      (fun c i k => hs0 c _) (fun c i k => ht0 c _), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, (hagree c).1, (hagree c).2]
  exact Cert.ReferenceIdeal.RefValue.val_real _ _ _ _ (fun i k => hs0 c _) (fun i k => ht0 c _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
